-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S64x2048 : Shape := ⟨2, ![64, 2048]⟩
abbrev S2048x64 : Shape := ⟨2, ![2048, 64]⟩
abbrev S64 : Shape := ⟨1, ![64]⟩
abbrev S4096x2048 : Shape := ⟨2, ![4096, 2048]⟩
abbrev S2048 : Shape := ⟨1, ![2048]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S4096x2048 .f32) (main_arg5 : FVec F S2048 .f32) (main_arg6 : FVec F S2048 .f32) (main_arg7 : FVec F S2048 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S8x4096x2048 .f32) (main_arg1 : FVec F S64x2048 .f32) (main_arg2 : FVec F S2048x64 .f32) (main_arg3 : FVec F S64 .f32) (main_arg4 : FVec F S4096x2048 .f32) (main_arg5 : FVec F S2048 .f32) (main_arg6 : FVec F S2048 .f32) (main_arg7 : FVec F S2048 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S2048x64 .f32 := Host.absf main_arg2
  let main_cst_2 : FVec F S_ .f32 := constant S_ .f32 0x7F800000#32
  let main_v10 : FVec F S2048x64 .f32 := broadcastInDim S2048x64 ![] bcast_S_S2048x64 main_cst_2
  let main_v11 : IVec S2048x64 1 := cmpf .olt main_v9 main_v10
  let main_c_3 : IVec S_ 1 := constantI S_ 1 1#1
  let main_v12 : IVec S_ 1 := (fun x v => Host.reduce IntOp.andi x v reducesTo_S2048x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S8x4096x2048 : Shape := ⟨3, ![8, 4096, 2048]⟩
abbrev S64x2048 : Shape := ⟨2, ![64, 2048]⟩
abbrev S2048x64 : Shape := ⟨2, ![2048, 64]⟩
abbrev S64 : Shape := ⟨1, ![64]⟩
abbrev S4096x2048 : Shape := ⟨2, ![4096, 2048]⟩
abbrev S2048 : Shape := ⟨1, ![2048]⟩
abbrev S2048x2048 : Shape := ⟨2, ![2048, 2048]⟩
abbrev S1x64 : Shape := ⟨2, ![1, 64]⟩
abbrev S1x2048 : Shape := ⟨2, ![1, 2048]⟩
abbrev S32768x2048 : Shape := ⟨2, ![32768, 2048]⟩
abbrev S256x2048 : Shape := ⟨2, ![256, 2048]⟩
abbrev S256x64 : Shape := ⟨2, ![256, 64]⟩
abbrev S256 : Shape := ⟨1, ![256]⟩
abbrev S256x1 : Shape := ⟨2, ![256, 1]⟩

abbrev nBuf : Space → Nat
  | .hbm => 21
  | .vmem => 11
  | .smem => 0
  | _ => 0

abbrev bufTy : (tb : Table) → Fin (tcTables nBuf tb) → BufTy
  | .hbm, ⟨0, _⟩ => ⟨S8x4096x2048, .f32⟩
  | .hbm, ⟨1, _⟩ => ⟨S64x2048, .f32⟩
  | .hbm, ⟨2, _⟩ => ⟨S2048x64, .f32⟩
  | .hbm, ⟨3, _⟩ => ⟨S64, .f32⟩
  | .hbm, ⟨4, _⟩ => ⟨S4096x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S2048x2048, .f32⟩
  | .hbm, ⟨9, _⟩ => ⟨S2048x2048, .f32⟩
  | .hbm, ⟨10, _⟩ => ⟨S64x2048, .f32⟩
  | .hbm, ⟨11, _⟩ => ⟨S2048x64, .bf16⟩
  | .hbm, ⟨12, _⟩ => ⟨S2048x2048, .bf16⟩
  | .hbm, ⟨13, _⟩ => ⟨S64x2048, .bf16⟩
  | .hbm, ⟨14, _⟩ => ⟨S1x64, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S8x4096x2048, .f32⟩
  | .local _ .vmem, ⟨0, _⟩ => ⟨S256x2048, .f32⟩
  | .local _ .vmem, ⟨1, _⟩ => ⟨S256x2048, .f32⟩
  | .local _ .vmem, ⟨2, _⟩ => ⟨S2048x64, .bf16⟩
  | .local _ .vmem, ⟨3, _⟩ => ⟨S1x64, .f32⟩
  | .local _ .vmem, ⟨4, _⟩ => ⟨S2048x2048, .bf16⟩
  | .local _ .vmem, ⟨5, _⟩ => ⟨S64x2048, .bf16⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S4096x2048_S2048x2048_0_0 : S4096x2048.Slices ![0, 0] S2048x2048
  slices_S4096x2048_S2048x2048_2048_0 : S4096x2048.Slices ![2048, 0] S2048x2048
  bitsLt_bf16_f32 : FTy.bits .bf16 < FTy.bits .f32
  shapeCasts_S64_S1x64 : S64.ShapeCasts S1x64
  shapeCasts_S2048_S1x2048 : S2048.ShapeCasts S1x2048
  shapeCasts_S8x4096x2048_S32768x2048 : S8x4096x2048.ShapeCasts S32768x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  shapeCasts_S32768x2048_S8x4096x2048 : S32768x2048.ShapeCasts S8x4096x2048
  dot_S64x2048_S2048x2048_S64x2048_1_0_0_1_n_n_wf : DotDims.WF S64x2048 S2048x2048 S64x2048 [1] [0] [0] [1] [] []
  dot_S256x2048_S2048x64_S256x64_1_0_0_1_n_n_wf : DotDims.WF S256x2048 S2048x64 S256x64 [1] [0] [0] [1] [] []
  dot_S256x64_S64x2048_S256x2048_1_0_0_1_n_n_wf : DotDims.WF S256x64 S64x2048 S256x2048 [1] [0] [0] [1] [] []
  dot_S256x2048_S2048x2048_S256x2048_1_0_0_1_n_n_wf : DotDims.WF S256x2048 S2048x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S32768x2048.size a
  hwx0_0 : ∀ i : grid0.Coords, EltTy.bits .f32 = 32 ∨ (Rect.block (s := S32768x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .bf16 = 32 ∨ (Rect.block (s := S2048x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x2048.size a ≤ S64x2048.size a
  hwx0_4 : ∀ i : grid0.Coords, EltTy.bits .bf16 = 32 ∨ (Rect.block (s := S64x2048) S64x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S32768x2048.size a
  hwx0_8 : ∀ i : grid0.Coords, EltTy.bits .f32 = 32 ∨ (Rect.block (s := S32768x2048) S256x2048.size (cc0_transform_8 i) (hinb0_8 i)).WholeWords (EltTy.packing .f32)

variable [Facts₀]

def dot_S64x2048_S2048x2048_S64x2048_1_0_0_1_n_n : DotDims S64x2048 S2048x2048 S64x2048 where
  lhsContracting := [1]
  rhsContracting := [0]
  lhsNonContracting := [0]
  rhsNonContracting := [1]
  lhsBatch := []
  rhsBatch := []
  wf := dot_S64x2048_S2048x2048_S64x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x2048_S256x2048_1_0_0_1_n_n : DotDims S256x2048 S2048x2048 S256x2048 where
  lhsContracting := [1]
  rhsContracting := [0]
  lhsNonContracting := [0]
  rhsNonContracting := [1]
  lhsBatch := []
  rhsBatch := []
  wf := dot_S256x2048_S2048x2048_S256x2048_1_0_0_1_n_n_wf

abbrev win0_0 : Pipeline.Window sig grid0 :=
  Pipeline.Window.ofSpec (Memref.whole main_v10) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x4096x2048 : Shape := ⟨3, ![8, 4096, 2048]⟩
abbrev S64x2048 : Shape := ⟨2, ![64, 2048]⟩
abbrev S2048x64 : Shape := ⟨2, ![2048, 64]⟩
abbrev S64 : Shape := ⟨1, ![64]⟩
abbrev S4096x2048 : Shape := ⟨2, ![4096, 2048]⟩
abbrev S2048 : Shape := ⟨1, ![2048]⟩
abbrev S8x4096x64 : Shape := ⟨3, ![8, 4096, 64]⟩
abbrev S1x1x64 : Shape := ⟨3, ![1, 1, 64]⟩
abbrev S_ : Shape := ⟨0, ![]⟩
abbrev S8x4096x4096 : Shape := ⟨3, ![8, 4096, 4096]⟩
abbrev S1x1x2048 : Shape := ⟨3, ![1, 1, 2048]⟩
abbrev S8x4096 : Shape := ⟨2, ![8, 4096]⟩
abbrev S8x4096x1 : Shape := ⟨3, ![8, 4096, 1]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S64x2048, .f32⟩
  | .hbm, ⟨2, _⟩ => ⟨S2048x64, .f32⟩
  | .hbm, ⟨3, _⟩ => ⟨S64, .f32⟩
  | .hbm, ⟨4, _⟩ => ⟨S4096x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S8x4096x64, .f32⟩
  | .hbm, ⟨9, _⟩ => ⟨S1x1x64, .f32⟩
  | .hbm, ⟨10, _⟩ => ⟨S8x4096x64, .f32⟩
  | .hbm, ⟨11, _⟩ => ⟨S8x4096x64, .f32⟩
  | .hbm, ⟨12, _⟩ => ⟨S8x4096x64, .f32⟩
  | .hbm, ⟨13, _⟩ => ⟨S8x4096x64, .f32⟩
  | .hbm, ⟨14, _⟩ => ⟨S_, .f32⟩
  | .hbm, ⟨15, _⟩ => ⟨S8x4096x64, .f32⟩
  | .hbm, ⟨16, _⟩ => ⟨S8x4096x64, .f32⟩
  | .hbm, ⟨17, _⟩ => ⟨S_, .f32⟩
  | .hbm, ⟨18, _⟩ => ⟨S8x4096x64, .f32⟩
  | .hbm, ⟨19, _⟩ => ⟨S8x4096x64, .f32⟩
  | .hbm, ⟨20, _⟩ => ⟨S8x4096x2048, .f32⟩
  | .hbm, ⟨21, _⟩ => ⟨S8x4096x4096, .f32⟩
  | .hbm, ⟨22, _⟩ => ⟨S8x4096x2048, .f32⟩
  | .hbm, ⟨23, _⟩ => ⟨S1x1x2048, .f32⟩
  | .hbm, ⟨24, _⟩ => ⟨S8x4096x2048, .f32⟩
  | .hbm, ⟨25, _⟩ => ⟨S8x4096x2048, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S_, .f32⟩
  | .hbm, ⟨30, _⟩ => ⟨S8x4096x1, .f32⟩
  | .hbm, ⟨31, _⟩ => ⟨S8x4096x1, .f32⟩
  | .hbm, ⟨32, _⟩ => ⟨S8x4096x2048, .f32⟩
  | .hbm, ⟨33, _⟩ => ⟨S8x4096x2048, .f32⟩
  | .hbm, ⟨34, _⟩ => ⟨S8x4096x2048, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x2048, .f32⟩
  | .hbm, ⟨42, _⟩ => ⟨S8x4096x2048, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S8x4096x1, .f32⟩
  | .hbm, ⟨47, _⟩ => ⟨S8x4096x2048, .f32⟩
  | .hbm, ⟨48, _⟩ => ⟨S8x4096x2048, .f32⟩
  | .hbm, ⟨49, _⟩ => ⟨S1x1x2048, .f32⟩
  | .hbm, ⟨50, _⟩ => ⟨S8x4096x2048, .f32⟩
  | .hbm, ⟨51, _⟩ => ⟨S8x4096x2048, .f32⟩
  | .hbm, ⟨52, _⟩ => ⟨S1x1x2048, .f32⟩
  | .hbm, ⟨53, _⟩ => ⟨S8x4096x2048, .f32⟩
  | .hbm, ⟨54, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x64 : S_.BroadcastsInDim S8x4096x64 (![] : Fin 0 → Fin S8x4096x64.rank)
  concatenates_S8x4096x2048_S8x4096x2048_S8x4096x4096_d2 : Shape.Concatenates [S8x4096x2048, S8x4096x2048] S8x4096x4096 2
  bcast_S2048_S1x1x2048_2 : S2048.BroadcastsInDim S1x1x2048 (![2] : Fin 1 → Fin S1x1x2048.rank)
  bcast_S1x1x2048_S8x4096x2048_0_1_2 : S1x1x2048.BroadcastsInDim S8x4096x2048 (![0, 1, 2] : Fin 3 → Fin S8x4096x2048.rank)
  reducesTo_S8x4096x2048_S8x4096_d2 : S8x4096x2048.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  dot_S8x4096x2048_S2048x64_S8x4096x64_2_0_01_1_n_n_wf : DotDims.WF S8x4096x2048 S2048x64 S8x4096x64 [2] [0] [0, 1] [1] [] []
  dot_S8x4096x64_S64x2048_S8x4096x2048_2_0_01_1_n_n_wf : DotDims.WF S8x4096x64 S64x2048 S8x4096x2048 [2] [0] [0, 1] [1] [] []
  dot_S8x4096x4096_S4096x2048_S8x4096x2048_2_0_01_1_n_n_wf : DotDims.WF S8x4096x4096 S4096x2048 S8x4096x2048 [2] [0] [0, 1] [1] [] []

variable [Facts₀]

def dot_S8x4096x2048_S2048x64_S8x4096x64_2_0_01_1_n_n : DotDims S8x4096x2048 S2048x64 S8x4096x64 where
  lhsContracting := [2]
  rhsContracting := [0]
  lhsNonContracting := [0, 1]
  rhsNonContracting := [1]
  lhsBatch := []
  rhsBatch := []
  wf := dot_S8x4096x2048_S2048x64_S8x4096x64_2_0_01_1_n_n_wf
def dot_S8x4096x64_S64x2048_S8x4096x2048_2_0_01_1_n_n : DotDims S8x4096x64 S64x2048 S8x4096x2048 where
  lhsContracting := [2]
  rhsContracting := [0]
  lhsNonContracting := [0, 1]
  rhsNonContracting := [1]
  lhsBatch := []
  rhsBatch := []
  wf := dot_S8x4096x64_S64x2048_S8x4096x2048_2_0_01_1_n_n_wf
def dot_S8x4096x4096_S4096x2048_S8x4096x2048_2_0_01_1_n_n : DotDims S8x4096x4096 S4096x2048 S8x4096x2048 where
  lhsContracting := [2]
  rhsContracting := [0]
  lhsNonContracting := [0, 1]
  rhsNonContracting := [1]
  lhsBatch := []
  rhsBatch := []
  wf := dot_S8x4096x4096_S4096x2048_S8x4096x2048_2_0_01_1_n_n_wf

class Facts : Prop extends Facts₀ where

variable [Facts]
-- ==== Proof.Spec.lean ====
/-
  A gated memory read followed by a row normalisation, as functions of coordinates over the extended reals.

  One row `x` of 2048 entries is projected onto 64 memory slots; slot `k`'s GATE is the logistic function of that
  projection plus a bias. The ENHANCED row is the row joined with what the gates retrieve from the slots
  (`Σ_k gate k · slots k e`), multiplied by a [4096, 2048] matrix, plus a bias. The same row can be computed
  without ever forming the retrieved row: multiply `x` by the matrix's upper half, and the gates by the product
  of the slots with the matrix's lower half (computed once). The two arrangements agree whenever every number
  involved is real: this is the associativity of the matrix product together with the split of a sum over 4096
  entries into its two halves. The row is then normalised: centred by its mean, scaled by the reciprocal square
  root of its variance plus a constant, scaled entrywise and shifted entrywise.
-/
import Idealize.ShloMosaic.PureOps.Ideal
import Idealize.ShloMosaic.PureOps.Ideal.Laws
import Mathlib.Algebra.BigOperators.Fin

noncomputable section

open Idealize.ShloMosaic
open scoped BigOperators

namespace Cert.MemoryNorm

/-- Slot `k`'s gate for the row `x`: the logistic function of the row's projection on the slot plus the bias. -/
def gate (x : Fin 2048 → EReal) (wg : Fin 2048 → Fin 64 → EReal) (bg : Fin 64 → EReal) (k : Fin 64) : EReal :=
  Ideal.logistic ((∑ e : Fin 2048, x e * wg e k) + bg k)

/-- The enhanced row computed in two pieces: the row times the matrix `w1`, plus the gates times the projected
    slots `sp`, plus the bias. -/
def enhancedSplit (x : Fin 2048 → EReal) (wg : Fin 2048 → Fin 64 → EReal) (bg : Fin 64 → EReal)
    (w1 : Fin 2048 → Fin 2048 → EReal) (sp : Fin 64 → Fin 2048 → EReal) (bu : Fin 2048 → EReal) (d : Fin 2048) : EReal :=
  ((∑ e : Fin 2048, x e * w1 e d) + ∑ k : Fin 64, gate x wg bg k * sp k d) + bu d

/-- What the gates retrieve from the slots. -/
def retrieved (x : Fin 2048 → EReal) (wg : Fin 2048 → Fin 64 → EReal) (bg : Fin 64 → EReal)
    (sl : Fin 64 → Fin 2048 → EReal) (e : Fin 2048) : EReal :=
  ∑ k : Fin 64, gate x wg bg k * sl k e

/-- Two rows of 2048 entries joined into one of 4096. -/
def joined (x r : Fin 2048 → EReal) (k : Fin 4096) : EReal :=
  if h : k.val < 2048 then x ⟨k.val, h⟩ else r ⟨k.val - 2048, by omega⟩

/-- The enhanced row computed from the joined row: the joined row times the whole matrix, plus the bias. -/
def enhancedJoined (x : Fin 2048 → EReal) (wg : Fin 2048 → Fin 64 → EReal) (bg : Fin 64 → EReal)
    (sl : Fin 64 → Fin 2048 → EReal) (wu : Fin 4096 → Fin 2048 → EReal) (bu : Fin 2048 → EReal) (d : Fin 2048) : EReal :=
  (∑ k : Fin 4096, joined x (retrieved x wg bg sl) k * wu k d) + bu d

/-- A row's mean: its sum divided by 2048. -/
def rowMean (h : Fin 2048 → EReal) : EReal :=
  Ideal.div (∑ d : Fin 2048, h d) (Ideal.ofBits .f32 0x45000000#32)

/-- A row's variance: the mean of the squared distances to the mean. -/
def rowVar (h : Fin 2048 → EReal) : EReal :=
  Ideal.div (∑ d : Fin 2048, (h d - rowMean h) * (h d - rowMean h)) (Ideal.ofBits .f32 0x45000000#32)

/-- The normalised row. -/
def rowNorm (h : Fin 2048 → EReal) (ga be : Fin 2048 → EReal) (d : Fin 2048) : EReal :=
  (h d - rowMean h) * Ideal.rsqrt (rowVar h + Ideal.ofBits .f32 0x3727C5AC#32) * ga d + be d

/-! ## The two arrangements agree on real numbers -/

/-- The coercion of a finite real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over 4096 entries is the sum over the first 2048 plus the sum over the last 2048. -/
theorem sum_halves (f : Fin 4096 → EReal) :
    ∑ k : Fin 4096, f k = (∑ e : Fin 2048, f ⟨e.val, by omega⟩) + ∑ e : Fin 2048, f ⟨2048 + e.val, by omega⟩ :=
  Fin.sum_univ_add (M := EReal) (a := 2048) (b := 2048) f

/-- A gate of real data is a real number. -/
theorem gate_real (x : Fin 2048 → EReal) (wg : Fin 2048 → Fin 64 → EReal) (bg : Fin 64 → EReal)
    (hx : ∀ e, ∃ r : ℝ, x e = r) (hwg : ∀ e k, ∃ r : ℝ, wg e k = r) (hbg : ∀ k, ∃ r : ℝ, bg k = r) (k : Fin 64) :
    ∃ r : ℝ, gate x wg bg k = r := by
  choose xr hxr using hx
  choose wgr hwgr using hwg
  choose bgr hbgr using hbg
  unfold gate
  simp only [hxr, hwgr, hbgr, ← EReal.coe_mul, ← coe_sum, ← EReal.coe_add]
  exact ⟨_, Ideal.logistic_coe _⟩

/-- THE LAW: on real data the split arrangement, fed the matrix's upper half and the slots projected through its
    lower half, is the joined arrangement. -/
theorem enhancedSplit_eq_joined (x : Fin 2048 → EReal) (wg : Fin 2048 → Fin 64 → EReal) (bg : Fin 64 → EReal)
    (sl : Fin 64 → Fin 2048 → EReal) (wu : Fin 4096 → Fin 2048 → EReal) (bu : Fin 2048 → EReal)
    (hx : ∀ e, ∃ r : ℝ, x e = r) (hwg : ∀ e k, ∃ r : ℝ, wg e k = r) (hbg : ∀ k, ∃ r : ℝ, bg k = r)
    (hsl : ∀ k e, ∃ r : ℝ, sl k e = r) (hwu : ∀ k d, ∃ r : ℝ, wu k d = r) (d : Fin 2048) :
    enhancedSplit x wg bg (fun e d => wu ⟨e.val, by omega⟩ d)
        (fun k d => ∑ e : Fin 2048, sl k e * wu ⟨2048 + e.val, by omega⟩ d) bu d
      = enhancedJoined x wg bg sl wu bu d := by
  have hg := gate_real x wg bg hx hwg hbg
  choose gr hgr using hg
  choose slr hslr using hsl
  choose wur hwur using hwu
  unfold enhancedSplit enhancedJoined
  refine congrArg (· + bu d) ?_
  rw [sum_halves]
  have h1 : ∀ e : Fin 2048, joined x (retrieved x wg bg sl) ⟨e.val, by omega⟩ = x e := fun e => by
    unfold joined; rw [dif_pos (show e.val < 2048 from e.isLt)]
  have h2 : ∀ e : Fin 2048, joined x (retrieved x wg bg sl) ⟨2048 + e.val, by omega⟩ = retrieved x wg bg sl e := fun e => by
    unfold joined
    rw [dif_neg (show ¬ (2048 + e.val < 2048) by omega)]
    exact congrArg _ (Fin.ext (by show 2048 + e.val - 2048 = e.val; omega))
  simp only [h1, h2]
  refine congrArg (_ + ·) ?_
  unfold retrieved
  simp only [hgr, hslr, hwur, ← EReal.coe_mul, ← coe_sum]
  refine congrArg _ ?_
  simp only [Finset.sum_mul, Finset.mul_sum, mul_assoc]
  exact Finset.sum_comm

end Cert.MemoryNorm

end
-- ==== Proof.ArraySpec.lean ====
/-
  The two arrangements of the gated memory read, as functions of the eight argument arrays at coordinates
  (b, s, d): row (b, s) of the input is read, its enhanced row is formed in the split or in the joined arrangement,
  and the row is normalised. On real data the two are one function.
-/
import proofs.«138103_j34187939676370_1_alg».proof.Proof.Spec
import Idealize.ShloMosaic.Lib.ValueIdx

noncomputable section

open Idealize.ShloMosaic Idealize.ShloMosaic.ValueIdx
open scoped BigOperators

namespace Cert.MemoryNorm

/-- The split arrangement at (b, s, d): the row times the matrix's upper half, plus the gates times the slots
    projected through the matrix's lower half, plus the bias; normalised. -/
def splitAt (X : (⟨3, ![8, 4096, 2048]⟩ : Shape).Idx → EReal) (SL : (⟨2, ![64, 2048]⟩ : Shape).Idx → EReal)
    (WG : (⟨2, ![2048, 64]⟩ : Shape).Idx → EReal) (BG : (⟨1, ![64]⟩ : Shape).Idx → EReal)
    (WU : (⟨2, ![4096, 2048]⟩ : Shape).Idx → EReal) (BU GA BE : (⟨1, ![2048]⟩ : Shape).Idx → EReal)
    (b : Fin 8) (s : Fin 4096) (d : Fin 2048) : EReal :=
  rowNorm (enhancedSplit (fun e => X (ix3 b s e)) (fun e k => WG (ix2 e k)) (fun k => BG (ix1 k))
      (fun e d' => WU (ix2 (⟨e.val, by omega⟩ : Fin 4096) d'))
      (fun k d' => ∑ e : Fin 2048, SL (ix2 k e) * WU (ix2 (⟨2048 + e.val, by omega⟩ : Fin 4096) d'))
      (fun d' => BU (ix1 d')))
    (fun d' => GA (ix1 d')) (fun d' => BE (ix1 d')) d

/-- The joined arrangement at (b, s, d): the row joined with what the gates retrieve, times the whole matrix, plus
    the bias; normalised. -/
def joinedAt (X : (⟨3, ![8, 4096, 2048]⟩ : Shape).Idx → EReal) (SL : (⟨2, ![64, 2048]⟩ : Shape).Idx → EReal)
    (WG : (⟨2, ![2048, 64]⟩ : Shape).Idx → EReal) (BG : (⟨1, ![64]⟩ : Shape).Idx → EReal)
    (WU : (⟨2, ![4096, 2048]⟩ : Shape).Idx → EReal) (BU GA BE : (⟨1, ![2048]⟩ : Shape).Idx → EReal)
    (b : Fin 8) (s : Fin 4096) (d : Fin 2048) : EReal :=
  rowNorm (enhancedJoined (fun e => X (ix3 b s e)) (fun e k => WG (ix2 e k)) (fun k => BG (ix1 k))
      (fun k e => SL (ix2 k e)) (fun k d' => WU (ix2 k d')) (fun d' => BU (ix1 d')))
    (fun d' => GA (ix1 d')) (fun d' => BE (ix1 d')) d

/-- On real data the two arrangements are one function. -/
theorem splitAt_eq_joinedAt (X : (⟨3, ![8, 4096, 2048]⟩ : Shape).Idx → EReal) (SL : (⟨2, ![64, 2048]⟩ : Shape).Idx → EReal)
    (WG : (⟨2, ![2048, 64]⟩ : Shape).Idx → EReal) (BG : (⟨1, ![64]⟩ : Shape).Idx → EReal)
    (WU : (⟨2, ![4096, 2048]⟩ : Shape).Idx → EReal) (BU GA BE : (⟨1, ![2048]⟩ : Shape).Idx → EReal)
    (hX : ∀ i, ∃ r : ℝ, X i = r) (hSL : ∀ i, ∃ r : ℝ, SL i = r) (hWG : ∀ i, ∃ r : ℝ, WG i = r)
    (hBG : ∀ i, ∃ r : ℝ, BG i = r) (hWU : ∀ i, ∃ r : ℝ, WU i = r) (b : Fin 8) (s : Fin 4096) (d : Fin 2048) :
    splitAt X SL WG BG WU BU GA BE b s d = joinedAt X SL WG BG WU BU GA BE b s d := by
  unfold splitAt joinedAt
  refine congrArg (fun h => rowNorm h _ _ d) (funext fun d' => ?_)
  exact enhancedSplit_eq_joined (fun e => X (ix3 b s e)) (fun e k => WG (ix2 e k)) (fun k => BG (ix1 k))
    (fun k e => SL (ix2 k e)) (fun k d'' => WU (ix2 k d'')) (fun d'' => BU (ix1 d''))
    (fun e => hX _) (fun e k => hWG _) (fun k => hBG _) (fun k e => hSL _) (fun k d'' => hWU _) d'

/-- The split arrangement as a whole array. -/
def splitArr (X : (⟨3, ![8, 4096, 2048]⟩ : Shape).Idx → EReal) (SL : (⟨2, ![64, 2048]⟩ : Shape).Idx → EReal)
    (WG : (⟨2, ![2048, 64]⟩ : Shape).Idx → EReal) (BG : (⟨1, ![64]⟩ : Shape).Idx → EReal)
    (WU : (⟨2, ![4096, 2048]⟩ : Shape).Idx → EReal) (BU GA BE : (⟨1, ![2048]⟩ : Shape).Idx → EReal) :
    (⟨3, ![8, 4096, 2048]⟩ : Shape).Idx → EReal :=
  fun i => splitAt X SL WG BG WU BU GA BE (i 0) (i 1) (i 2)

/-- The joined arrangement as a whole array. -/
def joinedArr (X : (⟨3, ![8, 4096, 2048]⟩ : Shape).Idx → EReal) (SL : (⟨2, ![64, 2048]⟩ : Shape).Idx → EReal)
    (WG : (⟨2, ![2048, 64]⟩ : Shape).Idx → EReal) (BG : (⟨1, ![64]⟩ : Shape).Idx → EReal)
    (WU : (⟨2, ![4096, 2048]⟩ : Shape).Idx → EReal) (BU GA BE : (⟨1, ![2048]⟩ : Shape).Idx → EReal) :
    (⟨3, ![8, 4096, 2048]⟩ : Shape).Idx → EReal :=
  fun i => joinedAt X SL WG BG WU BU GA BE (i 0) (i 1) (i 2)

theorem splitArr_ix3 (X : (⟨3, ![8, 4096, 2048]⟩ : Shape).Idx → EReal) (SL : (⟨2, ![64, 2048]⟩ : Shape).Idx → EReal)
    (WG : (⟨2, ![2048, 64]⟩ : Shape).Idx → EReal) (BG : (⟨1, ![64]⟩ : Shape).Idx → EReal)
    (WU : (⟨2, ![4096, 2048]⟩ : Shape).Idx → EReal) (BU GA BE : (⟨1, ![2048]⟩ : Shape).Idx → EReal)
    (b : Fin 8) (s : Fin 4096) (d : Fin 2048) :
    splitArr X SL WG BG WU BU GA BE (ix3 b s d) = splitAt X SL WG BG WU BU GA BE b s d := rfl

theorem joinedArr_ix3 (X : (⟨3, ![8, 4096, 2048]⟩ : Shape).Idx → EReal) (SL : (⟨2, ![64, 2048]⟩ : Shape).Idx → EReal)
    (WG : (⟨2, ![2048, 64]⟩ : Shape).Idx → EReal) (BG : (⟨1, ![64]⟩ : Shape).Idx → EReal)
    (WU : (⟨2, ![4096, 2048]⟩ : Shape).Idx → EReal) (BU GA BE : (⟨1, ![2048]⟩ : Shape).Idx → EReal)
    (b : Fin 8) (s : Fin 4096) (d : Fin 2048) :
    joinedArr X SL WG BG WU BU GA BE (ix3 b s d) = joinedAt X SL WG BG WU BU GA BE b s d := rfl

/-- On real data the two arrays are one. -/
theorem splitArr_eq_joinedArr (X : (⟨3, ![8, 4096, 2048]⟩ : Shape).Idx → EReal) (SL : (⟨2, ![64, 2048]⟩ : Shape).Idx → EReal)
    (WG : (⟨2, ![2048, 64]⟩ : Shape).Idx → EReal) (BG : (⟨1, ![64]⟩ : Shape).Idx → EReal)
    (WU : (⟨2, ![4096, 2048]⟩ : Shape).Idx → EReal) (BU GA BE : (⟨1, ![2048]⟩ : Shape).Idx → EReal)
    (hX : ∀ i, ∃ r : ℝ, X i = r) (hSL : ∀ i, ∃ r : ℝ, SL i = r) (hWG : ∀ i, ∃ r : ℝ, WG i = r)
    (hBG : ∀ i, ∃ r : ℝ, BG i = r) (hWU : ∀ i, ∃ r : ℝ, WU i = r) :
    splitArr X SL WG BG WU BU GA BE = joinedArr X SL WG BG WU BU GA BE :=
  funext fun i => splitAt_eq_joinedAt X SL WG BG WU BU GA BE hX hSL hWG hBG hWU (i 0) (i 1) (i 2)

end Cert.MemoryNorm

end
-- ==== Proof.LibSums.lean ====
/-
  General lemmas about sums over index ranges and about finiteness on the extended reals.
-/
import Idealize.ShloMosaic.PureOps.Ideal
import Idealize.ShloMosaic.Lib.ValueIdx
import Mathlib.Algebra.BigOperators.Fin

noncomputable section

open Idealize.ShloMosaic Idealize.ShloMosaic.ValueIdx

namespace Cert.LibSums

open Finset

/-- A sum over the first A*B naturals is the sum of A consecutive stretches of length B: element k = a*B + b. -/
theorem sum_range_mul {M : Type*} [AddCommMonoid M] (g : ℕ → M) (A B : ℕ) :
    ∑ k ∈ range (A * B), g k = ∑ a ∈ range A, ∑ b ∈ range B, g (a * B + b) := by
  induction A with
  | zero => simp
  | succ A ih => rw [Nat.succ_mul, sum_range_add, ih, sum_range_succ]

/-- A rank-1 index set is its one coordinate's range. -/
def idxEquiv1 {n : Nat} : (⟨1, ![n]⟩ : Shape).Idx ≃ Fin n where
  toFun i := i 0
  invFun k := ix1 k
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ k : Fin n, f (ix1 k) := by
  rw [← Equiv.sum_comp (idxEquiv1 (n := n)).symm f]
  rfl

/-- The f32 word 0x7F800000 is +infinity on the extended reals. -/
theorem ofBits_inf_f32 : Ideal.ofBits .f32 0x7F800000#32 = (⊤ : EReal) := by simp [Ideal.ofBits, Ideal.ieee]

/-- An extended real whose absolute value max(x, -x) is below +infinity is a real number. -/
theorem real_of_abs_lt_top (x : EReal) (h : max x (-x) < (⊤ : EReal)) : ∃ r : ℝ, x = r := by
  induction x using EReal.rec with
  | bot => simp at h
  | top => simp at h
  | coe r => exact ⟨r, rfl⟩

/-- A comparison bit that is 1 says the comparison holds. -/
theorem of_ofBool_decide {p : Prop} [Decidable p] (h : BitVec.ofBool (decide p) = 1#1) : p := by
  by_contra hn
  rw [decide_eq_false hn] at h
  exact absurd h (by decide)

/-- An entry whose "absolute value below the word of +infinity" bit is 1 is a real number: what one element of a
    printed "every float input is finite" precondition says at the extended reals. -/
theorem real_of_finite_bit (x : EReal)
    (e : BitVec.ofBool (decide (max x (-x) < Ideal.ofBits .f32 0x7F800000#32)) = 1#1) : ∃ r : ℝ, x = r :=
  real_of_abs_lt_top x (by have h := of_ofBool_decide e; rwa [ofBits_inf_f32] at h)

end Cert.LibSums

end
-- ==== Proof.Finite.lean ====
/-
  Under the precondition, every entry of the first five argument arrays is a real number.

  The precondition is the conjunction of eight bits, one per float argument; the bit of an argument a is the
  conjunction over all of its entries of "|a i| < +infinity". When the whole conjunction is 1 every one of the
  eight bits is 1, so every entry's comparison bit is 1, and an extended real whose absolute value is below
  +infinity is neither +infinity nor -infinity: it is a real number.
-/
import proofs.«138103_j34187939676370_1_alg».proof.Pre_finite_inputs
import proofs.«138103_j34187939676370_1_alg».proof.Proof.LibSums
import Idealize.ShloMosaic.Lib.ReduceAll
import Idealize.ShloMosaic.Lib.ValueIdx
import Idealize.ShloMosaic.PureOps.Ideal

noncomputable section
namespace Cert.FiniteInputs
open Idealize.ShloMosaic Cert.Pre_finite_inputs

/-- The rank-0 shape has exactly one index. -/
instance subsingleton_scalar_idx : Subsingleton S_.Idx := ⟨fun a b => funext fun d => d.elim0⟩

/-- One argument: if the conjunction over all entries of "|a i| < the word of +infinity" is 1, every entry of a is a
    real number. The conjunction being 1 makes each entry's comparison bit 1, and that bit is the decision of
    max (a i) (-(a i)) < +infinity. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ValueIdx.ix0 = 1#1)
    (i : s.Idx) : ∃ r : ℝ, (a i : EReal) = r := by
  have hi := Host.reduce_andi_all _ _ hr hu ValueIdx.ix0 e i
  exact Cert.LibSums.real_of_finite_bit (a i) hi

theorem real_entries [hP : Cert.Pre_finite_inputs.Facts]
    (a0 : FVec Ideal S8x4096x2048 .f32) (a1 : FVec Ideal S64x2048 .f32) (a2 : FVec Ideal S2048x64 .f32) (a3 : FVec Ideal S64 .f32)
    (a4 : FVec Ideal S4096x2048 .f32) (a5 a6 a7 : FVec Ideal S2048 .f32)
    (h : Cert.Pre_finite_inputs.fn (F := Ideal) a0 a1 a2 a3 a4 a5 a6 a7 = (fun _ => 1#1)) :
    (∀ i, ∃ r : ℝ, (a0 i : EReal) = r) ∧ (∀ i, ∃ r : ℝ, (a1 i : EReal) = r) ∧ (∀ i, ∃ r : ℝ, (a2 i : EReal) = r)
      ∧ (∀ i, ∃ r : ℝ, (a3 i : EReal) = r) ∧ (∀ i, ∃ r : ℝ, (a4 i : EReal) = r) := by
  have h0 := congrFun h ValueIdx.ix0
  simp only [fn, fn_part1, fn_part2, andi, IntOp.andi_eq_one] at h0
  obtain ⟨⟨⟨⟨⟨⟨⟨e0, e1⟩, e2⟩, e3⟩, e4⟩, -⟩, -⟩, -⟩ := h0
  exact ⟨real_of_all a0 _ _ _ e0, real_of_all a1 _ _ _ e1, real_of_all a2 _ _ _ e2, real_of_all a3 _ _ _ e3,
    real_of_all a4 _ _ _ e4⟩

end Cert.FiniteInputs

end
-- ==== Proof.RefRead.lean ====
/-
  The reference program's result, read at coordinates, is the specification.

  Row `(b, s)` of the input is projected onto 64 slots; each slot's gate is `1 / (1 + exp (-z))` of the projection
  plus a bias, which is the logistic function by definition. The gates contract with the slots into the retrieved
  row; the input row and the retrieved row are joined along the last axis (positions below 2048 read the input,
  positions from 2048 on read the retrieved row at the position less 2048); the joined row times the [4096, 2048]
  matrix plus a bias is the enhanced row. The result is the enhanced row centred by its mean (its sum over 2048),
  scaled by the reciprocal square root of its variance (the sum of the squared distances to the mean over 2048)
  plus a constant, scaled entrywise and shifted entrywise. Each step below reads one of these stages at explicit
  coordinates; the two sums start from the literal zero, which adds nothing.
-/
import proofs.«138103_j34187939676370_1_alg».proof.Proof.Gen.ReferenceIdeal.Read
import proofs.«138103_j34187939676370_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section
namespace Cert.ReferenceIdeal.RefValue
open Cert.ReferenceIdeal Cert.ReferenceIdeal.Read Idealize.ShloMosaic Idealize.ShloMosaic.ValueIdx Cert.MemoryNorm

/-- Slot `k`'s gate in the reference program: the projection plus the bias, through `1 / (1 + exp (-z))`,
    which is the logistic function by definition. -/
theorem gate_apply (x0 : (⟨S8x4096x2048, .f32⟩ : BufTy).Contents (Elt Ideal))
    (x2 : (⟨S2048x64, .f32⟩ : BufTy).Contents (Elt Ideal)) (x3 : (⟨S64, .f32⟩ : BufTy).Contents (Elt Ideal))
    (b : Fin 8) (s : Fin 4096) (k : Fin 64) :
    val_main_v9 (F := Ideal) x0 x2 x3 (ix3 b s k)
      = gate (fun e => x0 (ix3 b s e)) (fun e k => x2 (ix2 e k)) (fun k => x3 (ix1 k)) k := by
  rw [val_main_v9_apply, val_main_v8_apply, val_main_cst_0_apply, val_main_v7_apply, val_main_v6_apply,
    val_main_cst_apply, val_main_v5_apply, val_main_v4_apply, val_main_v3_apply, val_main_v0_apply,
    val_main_v2_apply, val_main_v1_apply]
  simp only [Ideal.hostDivf_def, Ideal.hostUnary_exp_def, Ideal.hostNegf_def, Ideal.negf_def, Ideal.addf_def,
    Ideal.ofBits_def, Ideal.ofBits_one_f32]
  have el : ∀ e : Fin 2048, lidx_main_v0 (ix3 b s k) e = ix3 b s e := fun e => funext fun a => Fin.ext (by
    match a with | ⟨0, _⟩ => rfl | ⟨1, _⟩ => rfl | ⟨2, _⟩ => rfl)
  have er : ∀ e : Fin 2048, ridx_main_v0 (ix3 b s k) e = ix2 e k := fun e => funext fun a => Fin.ext (by
    match a with | ⟨0, _⟩ => rfl | ⟨1, _⟩ => rfl)
  have eb : idx_main_v1 (idx_main_v2 (ix3 b s k)) = ix1 k := funext fun a => Fin.ext (by
    match a with | ⟨0, _⟩ => rfl)
  simp only [el, er, eb]
  rfl

/-- What the gates retrieve from the slots, in the reference program: the contraction of the gates with the slots. -/
theorem retrieved_apply (x0 : (⟨S8x4096x2048, .f32⟩ : BufTy).Contents (Elt Ideal))
    (x1 : (⟨S64x2048, .f32⟩ : BufTy).Contents (Elt Ideal))
    (x2 : (⟨S2048x64, .f32⟩ : BufTy).Contents (Elt Ideal)) (x3 : (⟨S64, .f32⟩ : BufTy).Contents (Elt Ideal))
    (b : Fin 8) (s : Fin 4096) (e : Fin 2048) :
    val_main_v10 (F := Ideal) x0 x1 x2 x3 (ix3 b s e)
      = retrieved (fun e => x0 (ix3 b s e)) (fun e k => x2 (ix2 e k)) (fun k => x3 (ix1 k))
          (fun k e => x1 (ix2 k e)) e := by
  rw [val_main_v10_apply]
  unfold retrieved
  refine Finset.sum_congr rfl fun k _ => ?_
  have el : lidx_main_v10 (ix3 b s e) k = ix3 b s k := funext fun a => Fin.ext (by
    match a with | ⟨0, _⟩ => rfl | ⟨1, _⟩ => rfl | ⟨2, _⟩ => rfl)
  have er : ridx_main_v10 (ix3 b s e) k = ix2 k e := funext fun a => Fin.ext (by
    match a with | ⟨0, _⟩ => rfl | ⟨1, _⟩ => rfl)
  rw [el, er, gate_apply]

/-- The joined row in the reference program: a position below 2048 reads the input row, a position from 2048 on
    reads the retrieved row at that position less 2048. -/
theorem joined_apply (x0 : (⟨S8x4096x2048, .f32⟩ : BufTy).Contents (Elt Ideal))
    (x1 : (⟨S64x2048, .f32⟩ : BufTy).Contents (Elt Ideal))
    (x2 : (⟨S2048x64, .f32⟩ : BufTy).Contents (Elt Ideal)) (x3 : (⟨S64, .f32⟩ : BufTy).Contents (Elt Ideal))
    (b : Fin 8) (s : Fin 4096) (k : Fin 4096) :
    val_main_v11 (F := Ideal) x0 x1 x2 x3 (ix3 b s k)
      = joined (fun e => x0 (ix3 b s e))
          (retrieved (fun e => x0 (ix3 b s e)) (fun e k => x2 (ix2 e k)) (fun k => x3 (ix1 k))
            (fun k e => x1 (ix2 k e))) k := by
  unfold joined val_main_v11
  by_cases h : k.val < 2048
  · rw [dif_pos h]
    exact concatenate_pair_apply_left (t := S8x4096x4096) (s₁ := S8x4096x2048) (s₂ := S8x4096x2048) 2 x0 _ _ (ix3 b s k) rfl (ix3 b s ⟨k.val, h⟩)
      (fun a => by match a with | ⟨0, _⟩ => rfl | ⟨1, _⟩ => rfl | ⟨2, _⟩ => rfl)
  · rw [dif_neg h]
    have hk : k.val - 2048 < 2048 := by have := k.isLt; omega
    refine (concatenate_pair_apply_right (t := S8x4096x4096) (s₁ := S8x4096x2048) (s₂ := S8x4096x2048) 2 x0 _ _ (ix3 b s k) rfl rfl
      (ix3 b s (⟨k.val - 2048, hk⟩ : Fin 2048)) ?_ ?_).trans (retrieved_apply x0 x1 x2 x3 b s _)
    · intro a ha
      match a with
      | ⟨0, _⟩ => rfl
      | ⟨1, _⟩ => rfl
      | ⟨2, _⟩ => exact absurd rfl ha
    · show (k.val - 2048) + 2048 = k.val
      omega

/-- The enhanced row in the reference program is the specification's: the joined row times the matrix, plus the bias. -/
theorem enhanced_apply (x0 : (⟨S8x4096x2048, .f32⟩ : BufTy).Contents (Elt Ideal))
    (x1 : (⟨S64x2048, .f32⟩ : BufTy).Contents (Elt Ideal))
    (x2 : (⟨S2048x64, .f32⟩ : BufTy).Contents (Elt Ideal)) (x3 : (⟨S64, .f32⟩ : BufTy).Contents (Elt Ideal))
    (x4 : (⟨S4096x2048, .f32⟩ : BufTy).Contents (Elt Ideal)) (x5 : (⟨S2048, .f32⟩ : BufTy).Contents (Elt Ideal))
    (b : Fin 8) (s : Fin 4096) (d : Fin 2048) :
    val_main_v15 (F := Ideal) x0 x1 x2 x3 x4 x5 (ix3 b s d)
      = enhancedJoined (fun e => x0 (ix3 b s e)) (fun e k => x2 (ix2 e k)) (fun k => x3 (ix1 k))
          (fun k e => x1 (ix2 k e)) (fun k d' => x4 (ix2 k d')) (fun d' => x5 (ix1 d')) d := by
  rw [val_main_v15_apply, val_main_v12_apply, val_main_v14_apply, val_main_v13_apply]
  unfold enhancedJoined
  simp only [Ideal.addf_def]
  have eb : idx_main_v13 (idx_main_v14 (ix3 b s d)) = ix1 d := funext fun a => Fin.ext (by
    match a with | ⟨0, _⟩ => rfl)
  rw [eb]
  refine congrArg (· + x5 (ix1 d)) (Finset.sum_congr rfl fun k _ => ?_)
  have el : lidx_main_v12 (ix3 b s d) k = ix3 b s k := funext fun a => Fin.ext (by
    match a with | ⟨0, _⟩ => rfl | ⟨1, _⟩ => rfl | ⟨2, _⟩ => rfl)
  have er : ridx_main_v12 (ix3 b s d) k = ix2 k d := funext fun a => Fin.ext (by
    match a with | ⟨0, _⟩ => rfl | ⟨1, _⟩ => rfl)
  rw [el, er, joined_apply]

/-- The row's mean in the reference program: the sum of the enhanced row over 2048. -/
theorem mean_apply (x0 : (⟨S8x4096x2048, .f32⟩ : BufTy).Contents (Elt Ideal))
    (x1 : (⟨S64x2048, .f32⟩ : BufTy).Contents (Elt Ideal))
    (x2 : (⟨S2048x64, .f32⟩ : BufTy).Contents (Elt Ideal)) (x3 : (⟨S64, .f32⟩ : BufTy).Contents (Elt Ideal))
    (x4 : (⟨S4096x2048, .f32⟩ : BufTy).Contents (Elt Ideal)) (x5 : (⟨S2048, .f32⟩ : BufTy).Contents (Elt Ideal))
    (b : Fin 8) (s : Fin 4096) :
    val_main_v19 (F := Ideal) x0 x1 x2 x3 x4 x5 (ix3 b s (0 : Fin 1))
      = rowMean (fun d' => val_main_v15 (F := Ideal) x0 x1 x2 x3 x4 x5 (ix3 b s d')) := by
  rw [val_main_v19_apply, val_main_v17_apply, val_main_v16_apply, val_main_v18_apply, val_main_cst_2_apply,
    val_main_cst_1_apply]
  simp only [Ideal.hostDivf_def, Ideal.ofBits_def, Ideal.ofBits_zero_f32, zero_add]
  unfold rowMean
  refine congrArg (fun t => Ideal.div t _) (Finset.sum_congr rfl fun k _ => ?_)
  have ei : idx_main_v16 (idx_main_v17 (ix3 b s (0 : Fin 1))) k = ix3 b s k := funext fun a => Fin.ext (by
    match a with | ⟨0, _⟩ => rfl | ⟨1, _⟩ => rfl | ⟨2, _⟩ => rfl)
  rw [ei]

/-- The row's variance in the reference program: the sum of the squared distances to the mean over 2048. -/
theorem var_apply (x0 : (⟨S8x4096x2048, .f32⟩ : BufTy).Contents (Elt Ideal))
    (x1 : (⟨S64x2048, .f32⟩ : BufTy).Contents (Elt Ideal))
    (x2 : (⟨S2048x64, .f32⟩ : BufTy).Contents (Elt Ideal)) (x3 : (⟨S64, .f32⟩ : BufTy).Contents (Elt Ideal))
    (x4 : (⟨S4096x2048, .f32⟩ : BufTy).Contents (Elt Ideal)) (x5 : (⟨S2048, .f32⟩ : BufTy).Contents (Elt Ideal))
    (b : Fin 8) (s : Fin 4096) :
    val_main_v26 (F := Ideal) x0 x1 x2 x3 x4 x5 (ix3 b s (0 : Fin 1))
      = rowVar (fun d' => val_main_v15 (F := Ideal) x0 x1 x2 x3 x4 x5 (ix3 b s d')) := by
  rw [val_main_v26_apply, val_main_v24_apply, val_main_v23_apply, val_main_v25_apply, val_main_cst_4_apply,
    val_main_cst_3_apply]
  simp only [Ideal.hostDivf_def, Ideal.ofBits_def, Ideal.ofBits_zero_f32, zero_add]
  unfold rowVar
  refine congrArg (fun t => Ideal.div t _) (Finset.sum_congr rfl fun k _ => ?_)
  have ei : idx_main_v23 (idx_main_v24 (ix3 b s (0 : Fin 1))) k = ix3 b s k := funext fun a => Fin.ext (by
    match a with | ⟨0, _⟩ => rfl | ⟨1, _⟩ => rfl | ⟨2, _⟩ => rfl)
  have ej : idx_main_v20 (ix3 b s k) = ix3 b s (0 : Fin 1) := funext fun a => Fin.ext (by
    match a with | ⟨0, _⟩ => rfl | ⟨1, _⟩ => rfl | ⟨2, _⟩ => rfl)
  rw [ei, val_main_v22_apply, val_main_v21_apply, val_main_v20_apply, ej, mean_apply]
  simp only [Ideal.mulf_def, Ideal.subf_def]

/-- The reference program's result at a coordinate, as the normalisation of its own enhanced row. -/
theorem norm_apply (x0 : (⟨S8x4096x2048, .f32⟩ : BufTy).Contents (Elt Ideal))
    (x1 : (⟨S64x2048, .f32⟩ : BufTy).Contents (Elt Ideal))
    (x2 : (⟨S2048x64, .f32⟩ : BufTy).Contents (Elt Ideal)) (x3 : (⟨S64, .f32⟩ : BufTy).Contents (Elt Ideal))
    (x4 : (⟨S4096x2048, .f32⟩ : BufTy).Contents (Elt Ideal)) (x5 x6 x7 : (⟨S2048, .f32⟩ : BufTy).Contents (Elt Ideal))
    (b : Fin 8) (s : Fin 4096) (d : Fin 2048) :
    val_main_v39 (F := Ideal) x0 x1 x2 x3 x4 x5 x6 x7 (ix3 b s d)
      = rowNorm (fun d' => val_main_v15 (F := Ideal) x0 x1 x2 x3 x4 x5 (ix3 b s d'))
          (fun d' => x6 (ix1 d')) (fun d' => x7 (ix1 d')) d := by
  rw [val_main_v39_apply, val_main_v36_apply, val_main_v33_apply, val_main_v28_apply, val_main_v27_apply,
    val_main_v32_apply, val_main_v31_apply, val_main_v30_apply, val_main_v29_apply, val_main_cst_5_apply,
    val_main_v35_apply, val_main_v34_apply, val_main_v38_apply, val_main_v37_apply]
  have e27 : idx_main_v27 (ix3 b s d) = ix3 b s (0 : Fin 1) := funext fun a => Fin.ext (by
    match a with | ⟨0, _⟩ => rfl | ⟨1, _⟩ => rfl | ⟨2, _⟩ => rfl)
  have e32 : idx_main_v32 (ix3 b s d) = ix3 b s (0 : Fin 1) := funext fun a => Fin.ext (by
    match a with | ⟨0, _⟩ => rfl | ⟨1, _⟩ => rfl | ⟨2, _⟩ => rfl)
  have e35 : idx_main_v34 (idx_main_v35 (ix3 b s d)) = ix1 d := funext fun a => Fin.ext (by
    match a with | ⟨0, _⟩ => rfl)
  have e38 : idx_main_v37 (idx_main_v38 (ix3 b s d)) = ix1 d := funext fun a => Fin.ext (by
    match a with | ⟨0, _⟩ => rfl)
  rw [e27, e32, e35, e38, mean_apply, var_apply]
  simp only [Ideal.addf_def, Ideal.mulf_def, Ideal.subf_def, Ideal.hostUnary_rsqrt_def, Ideal.ofBits_def]
  rfl

/-- THE READING: at every coordinate `(b, s, d)` the reference program's result is the normalised enhanced row of
    the specification, fed row `(b, s)` of the input, the projection, its bias, the slots, the matrix, its bias,
    and the two entrywise vectors. -/
theorem ref_apply (x0 : (⟨S8x4096x2048, .f32⟩ : BufTy).Contents (Elt Ideal)) (x1 : (⟨S64x2048, .f32⟩ : BufTy).Contents (Elt Ideal))
    (x2 : (⟨S2048x64, .f32⟩ : BufTy).Contents (Elt Ideal)) (x3 : (⟨S64, .f32⟩ : BufTy).Contents (Elt Ideal))
    (x4 : (⟨S4096x2048, .f32⟩ : BufTy).Contents (Elt Ideal)) (x5 x6 x7 : (⟨S2048, .f32⟩ : BufTy).Contents (Elt Ideal))
    (b : Fin 8) (s : Fin 4096) (d : Fin 2048) :
    val_main_v39 (F := Ideal) x0 x1 x2 x3 x4 x5 x6 x7 (ix3 b s d)
      = rowNorm (enhancedJoined (fun e => x0 (ix3 b s e)) (fun e k => x2 (ix2 e k)) (fun k => x3 (ix1 k))
          (fun k e => x1 (ix2 k e)) (fun k d' => x4 (ix2 k d')) (fun d' => x5 (ix1 d')))
          (fun d' => x6 (ix1 d')) (fun d' => x7 (ix1 d')) d := by
  rw [norm_apply]
  exact congrArg (fun h => rowNorm h (fun d' => x6 (ix1 d')) (fun d' => x7 (ix1 d')) d)
    (funext fun d' => enhanced_apply x0 x1 x2 x3 x4 x5 b s d')

end Cert.ReferenceIdeal.RefValue
end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibRows.lean ====
/-
  Reductions over the LAST axis read at explicit coordinates, at the exact (extended-real) values.

  Row `t` of an `[a, b]` array reduced over its second axis collects the entries `(t, s)`, `s` running over the
  `b` columns: a maximum is the fold of `max` over them from the starting value, a sum their sum. The same for a
  stack `[n, a, b]` reduced over its third axis: entry `(p, t)` of the result collects `(p, t, s)`. The only thing to
  say is that the index obtained by inserting `s` on the reduced axis is the one written by coordinates.
-/
import Idealize.ShloMosaic.PureOps.Ideal.Laws
import Idealize.ShloMosaic.Lib.ValueIdx

open scoped BigOperators

namespace Idealize.ShloMosaic.ValueIdx

open Idealize.ShloMosaic

/-- Inserting the column `s` into the row index `t` gives the entry `(t, s)`. -/
theorem lift_last_ix2 {a b : ℕ} (h : (⟨2, ![a, b]⟩ : Shape).Reduces [1] ⟨1, ![a]⟩) (t : Fin a) (s : Fin b) :
    h.lift (ix1 t) s = ix2 t s := by
  funext d
  refine Fin.ext ?_
  match d with
  | ⟨0, _⟩ => rfl
  | ⟨1, _⟩ => rfl

/-- Inserting the last coordinate `s` into `(p, t)` gives the entry `(p, t, s)`. -/
theorem lift_last_ix3 {n a b : ℕ} (h : (⟨3, ![n, a, b]⟩ : Shape).Reduces [2] ⟨2, ![n, a]⟩) (p : Fin n) (t : Fin a)
    (s : Fin b) : h.lift (ix2 p t) s = ix3 p t s := by
  funext d
  refine Fin.ext ?_
  match d with
  | ⟨0, _⟩ => rfl
  | ⟨1, _⟩ => rfl
  | ⟨2, _⟩ => rfl

variable {φ : FTy}

/-- A row's maximum: the fold of `max` over the row's entries, from the accumulator's value. -/
theorem rowMax_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (t : Fin a) :
    multiReduction .maximumf [1] ⟨1, ![a]⟩ v acc h hφ hacc (ix1 t)
      = (Finset.univ : Finset (Fin b)).fold max (Ideal.ofBits φ acc) (fun s => v (ix2 t s)) := by
  rw [Ideal.multiReduction_maximumf_single]
  have e : (v ∘ h.lift (ix1 t)) = fun s : Fin b => v (ix2 t s) := funext fun s => congrArg v (lift_last_ix2 h t s)
  rw [e]
  rfl

/-- A row's sum: the sum of the row's entries. -/
theorem rowSum_apply {a b : ℕ} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (t : Fin a) :
    multiReduction .add [1] ⟨1, ![a]⟩ v acc h hφ hacc (ix1 t) = ∑ s : Fin b, v (ix2 t s) := by
  rw [Ideal.multiReduction_add_single]
  show ∑ s : Fin b, _ = _
  exact Finset.sum_congr rfl fun s _ => congrArg v (lift_last_ix2 h t s)

/-- The host's maximum over the last axis of a stack of matrices: at `(p, t)` the fold of `max` over the entries
    `(p, t, s)`, from the starting value's one element. -/
theorem hostLastMax_apply {n a b : ℕ} (x : FVec Ideal ⟨3, ![n, a, b]⟩ φ) (init : (⟨0, ![]⟩ : Shape).Idx → Ideal φ)
    (h' : (⟨3, ![n, a, b]⟩ : Shape).ReducesTo [2] ⟨2, ![n, a]⟩) (h : (⟨3, ![n, a, b]⟩ : Shape).Reduces [2] ⟨2, ![n, a]⟩)
    (hu : 0 < (⟨0, ![]⟩ : Shape).numel) (p : Fin n) (t : Fin a) :
    Host.reduce FloatOps.maximumf x init h' hu (ix2 p t)
      = (Finset.univ : Finset (Fin b)).fold max (init ix0) (fun s => x (ix3 p t s)) := by
  rw [Host.reduce_eq_fold_single FloatOps.maximumf x init h' h hu, eq_ix0 (Shape.Idx.first hu)]
  have e : (x ∘ h.lift (ix2 p t)) = fun s : Fin b => x (ix3 p t s) := funext fun s => congrArg x (lift_last_ix3 h p t s)
  rw [e]
  rfl

end Idealize.ShloMosaic.ValueIdx
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.Payload.lean ====
/-
  What the kernel body computes on one block of 256 rows, read at coordinates.

  The body multiplies the block of rows by the gate matrix and adds the gate bias, applies the logistic function,
  multiplies the gates by the projected slots, multiplies the rows by the upper matrix, adds the two products and
  the bias, and normalises each row. Entry (p, q) of the result depends on row p of the block only: it is the
  normalised enhanced row of that row, at column q. A change of float format is the identity on the extended reals,
  a matrix product into a zero accumulator is the sum of products, and a reduction over the columns is the row's sum.
-/
import proofs.«138103_j34187939676370_1_alg».proof.Proof.Gen.KernelIdeal.Skeleton
import proofs.«138103_j34187939676370_1_alg».proof.Proof.Spec
import proofs.«138103_j34187939676370_1_alg».proof.Proof.LibPlainDot
import proofs.«138103_j34187939676370_1_alg».proof.Proof.LibRows
import proofs.«138103_j34187939676370_1_alg».proof.Proof.LibLayout
import Idealize.ShloMosaic.Lib.ValueLayout
import Idealize.ShloMosaic.Lib.Pipeline.Value
import Idealize.ShloMosaic.Lib.ValueIdx

noncomputable section

namespace Cert.KernelIdeal.BodyValue

open Cert.KernelIdeal Cert.KernelIdeal.Gen Idealize.ShloMosaic Idealize.ShloMosaic.ValueIdx Cert.MemoryNorm

/-- The gates of the block's rows: the logistic function of rows × gate matrix + gate bias. -/
def gateBlock (x0 : FVec Ideal S256x2048 .f32) (x1 : FVec Ideal S2048x64 .bf16) (x2 : FVec Ideal S1x64 .f32) : FVec Ideal S256x64 .f32 :=
  logistic (addf
    (matmul dot_S256x2048_S2048x64_S256x64_1_0_0_1_n_n none
      (truncf .bf16 (shapeCast S256x2048 x0 shapeCasts_S256x2048_S256x2048) bitsLt_bf16_f32)
      (shapeCast S2048x64 x1 shapeCasts_S2048x64_S2048x64) (constant S256x64 .f32 0x00000000#32))
    (broadcastTo S256x64 (shapeCast S1x64 x2 shapeCasts_S1x64_S1x64) broadcasts_S1x64_S256x64))

/-- The enhanced rows of the block: rows × upper matrix + gates × projected slots + bias. -/
def enhBlock (x0 : FVec Ideal S256x2048 .f32) (x1 : FVec Ideal S2048x64 .bf16) (x2 : FVec Ideal S1x64 .f32)
    (x4 : FVec Ideal S64x2048 .bf16) (x3 : FVec Ideal S2048x2048 .bf16) (x5 : FVec Ideal S1x2048 .f32) : FVec Ideal S256x2048 .f32 :=
  addf (addf
      (matmul dot_S256x2048_S2048x2048_S256x2048_1_0_0_1_n_n none
        (truncf .bf16 (shapeCast S256x2048 x0 shapeCasts_S256x2048_S256x2048) bitsLt_bf16_f32)
        (shapeCast S2048x2048 x3 shapeCasts_S2048x2048_S2048x2048) (constant S256x2048 .f32 0x00000000#32))
      (matmul dot_S256x64_S64x2048_S256x2048_1_0_0_1_n_n none
        (truncf .bf16 (gateBlock x0 x1 x2) bitsLt_bf16_f32)
        (shapeCast S64x2048 x4 shapeCasts_S64x2048_S64x2048) (constant S256x2048 .f32 0x00000000#32)))
    (broadcastTo S256x2048 (shapeCast S1x2048 x5 shapeCasts_S1x2048_S1x2048) broadcasts_S1x2048_S256x2048)

/-- A block's row means, as a column. -/
def meanCol (h : FVec Ideal S256x2048 .f32) : FVec Ideal S256x1 .f32 :=
  divf (shapeCast S256x1 (multiReduction .add [1] S256 h 0x00000000#32 reduces_S256x2048_S256 (.inl rfl) rfl) shapeCasts_S256_S256x1)
    (broadcast S256x1 (Scalar.ofBits .f32 0x45000000#32))

/-- A block with each row's mean subtracted. -/
def centred (h : FVec Ideal S256x2048 .f32) : FVec Ideal S256x2048 .f32 :=
  subf h (broadcastTo S256x2048 (meanCol h) broadcasts_S256x1_S256x2048)

/-- The normalised block. -/
def normBlock (h : FVec Ideal S256x2048 .f32) (x6 x7 : FVec Ideal S1x2048 .f32) : FVec Ideal S256x2048 .f32 :=
  addf (mulf (mulf (centred h)
        (broadcastTo S256x2048 (rsqrt (addf (meanCol (mulf (centred h) (centred h))) (broadcast S256x1 (Scalar.ofBits .f32 0x3727C5AC#32))))
          broadcasts_S256x1_S256x2048))
      (broadcastTo S256x2048 (shapeCast S1x2048 x6 shapeCasts_S1x2048_S1x2048) broadcasts_S1x2048_S256x2048))
    (broadcastTo S256x2048 (shapeCast S1x2048 x7 shapeCasts_S1x2048_S1x2048) broadcasts_S1x2048_S256x2048)

/-- The body's stored value is the normalised enhanced block. -/
theorem pay_eq (x0 : FVec Ideal S256x2048 .f32) (x1 : FVec Ideal S2048x64 .bf16) (x2 : FVec Ideal S1x64 .f32)
    (x3 : FVec Ideal S2048x2048 .bf16) (x4 : FVec Ideal S64x2048 .bf16) (x5 x6 x7 : FVec Ideal S1x2048 .f32) :
    k0_pay1 (k0_pay2 x0 x1 x2 x4 x3 x5) x6 x7 = normBlock (enhBlock x0 x1 x2 x4 x3 x5) x6 x7 := rfl

/-- A gate at (p, k). -/
theorem gateBlock_apply (x0 : FVec Ideal S256x2048 .f32) (x1 : FVec Ideal S2048x64 .bf16) (x2 : FVec Ideal S1x64 .f32)
    (p : Fin 256) (k : Fin 64) :
    gateBlock x0 x1 x2 (ix2 p k)
      = gate (fun e => x0 (ix2 p e)) (fun e k => x1 (ix2 e k)) (fun k => x2 (ix2 (0 : Fin 1) k)) k := by
  unfold gateBlock gate
  show Ideal.logistic (_ + _) = Ideal.logistic (_ + _)
  refine congrArg Ideal.logistic (congr (congrArg HAdd.hAdd ?_) ?_)
  · refine (Cert.LibPlainDot.matmul_plain_apply dot_S256x2048_S2048x64_S256x64_1_0_0_1_n_n rfl rfl rfl rfl rfl rfl none _ _ p k).trans ?_
    simp only [shapeCast_self]
    rfl
  · refine (broadcastTo_1b_ab_apply _ _ p k).trans ?_
    rw [shapeCast_self]

/-- An enhanced entry at (p, q): the split arrangement of row p, at column q. -/
theorem enhBlock_apply (x0 : FVec Ideal S256x2048 .f32) (x1 : FVec Ideal S2048x64 .bf16) (x2 : FVec Ideal S1x64 .f32)
    (x4 : FVec Ideal S64x2048 .bf16) (x3 : FVec Ideal S2048x2048 .bf16) (x5 : FVec Ideal S1x2048 .f32) (p : Fin 256) (q : Fin 2048) :
    enhBlock x0 x1 x2 x4 x3 x5 (ix2 p q)
      = enhancedSplit (fun e => x0 (ix2 p e)) (fun e k => x1 (ix2 e k)) (fun k => x2 (ix2 (0 : Fin 1) k))
          (fun e d => x3 (ix2 e d)) (fun k d => x4 (ix2 k d)) (fun d => x5 (ix2 (0 : Fin 1) d)) q := by
  unfold enhBlock enhancedSplit
  show (_ + _) + _ = (_ + _) + _
  refine congr (congrArg HAdd.hAdd (congr (congrArg HAdd.hAdd ?_) ?_)) ?_
  · refine (Cert.LibPlainDot.matmul_plain_apply dot_S256x2048_S2048x2048_S256x2048_1_0_0_1_n_n rfl rfl rfl rfl rfl rfl none _ _ p q).trans ?_
    simp only [shapeCast_self]
    rfl
  · refine (Cert.LibPlainDot.matmul_plain_apply dot_S256x64_S64x2048_S256x2048_1_0_0_1_n_n rfl rfl rfl rfl rfl rfl none _ _ p q).trans ?_
    simp only [shapeCast_self]
    exact Finset.sum_congr rfl fun k _ => congrArg (· * x4 (ix2 k q)) (gateBlock_apply x0 x1 x2 p k)
  · refine (broadcastTo_1b_ab_apply _ _ p q).trans ?_
    rw [shapeCast_self]

/-- A row's mean, wherever it is read in the column. -/
theorem meanCol_apply (h : FVec Ideal S256x2048 .f32) (p : Fin 256) (u : Fin 1) :
    meanCol h (ix2 p u) = rowMean (fun d => h (ix2 p d)) := by
  unfold meanCol rowMean
  show Ideal.div _ (Ideal.ofBits .f32 0x45000000#32) = Ideal.div _ (Ideal.ofBits .f32 0x45000000#32)
  refine congrArg (Ideal.div · _) ?_
  exact (shapeCast_a_a1_apply _ _ p u).trans (rowSum_apply h _ _ _ _ p)

/-- A centred entry. -/
theorem centred_apply (h : FVec Ideal S256x2048 .f32) (p : Fin 256) (q : Fin 2048) :
    centred h (ix2 p q) = h (ix2 p q) - rowMean (fun d => h (ix2 p d)) := by
  unfold centred
  show h (ix2 p q) - _ = _
  refine congrArg (h (ix2 p q) - ·) ?_
  exact (broadcastTo_a1_ab_apply _ _ p q).trans (meanCol_apply h p 0)

/-- A normalised entry at (p, q): the normalised row p, at column q. -/
theorem normBlock_apply (h : FVec Ideal S256x2048 .f32) (x6 x7 : FVec Ideal S1x2048 .f32) (p : Fin 256) (q : Fin 2048) :
    normBlock h x6 x7 (ix2 p q)
      = rowNorm (fun d => h (ix2 p d)) (fun d => x6 (ix2 (0 : Fin 1) d)) (fun d => x7 (ix2 (0 : Fin 1) d)) q := by
  have hsq : (fun d : Fin 2048 => mulf (centred h) (centred h) (ix2 p d))
      = fun d => (h (ix2 p d) - rowMean (fun d => h (ix2 p d))) * (h (ix2 p d) - rowMean (fun d => h (ix2 p d))) :=
    funext fun d => by
      show centred h (ix2 p d) * centred h (ix2 p d) = _
      rw [centred_apply]
  have hvar : meanCol (mulf (centred h) (centred h)) (ix2 p (0 : Fin 1)) = rowVar (fun d => h (ix2 p d)) := by
    rw [meanCol_apply, hsq]
    rfl
  unfold normBlock rowNorm
  show (_ * _) * _ + _ = (_ * _) * _ + _
  refine congr (congrArg HAdd.hAdd (congr (congrArg HMul.hMul (congr (congrArg HMul.hMul ?_) ?_)) ?_)) ?_
  · exact centred_apply h p q
  · refine (broadcastTo_a1_ab_apply _ _ p q).trans ?_
    show Ideal.rsqrt (_ + Ideal.ofBits .f32 0x3727C5AC#32) = _
    rw [hvar]
  · refine (broadcastTo_1b_ab_apply _ _ p q).trans ?_
    rw [shapeCast_self]
  · refine (broadcastTo_1b_ab_apply _ _ p q).trans ?_
    rw [shapeCast_self]

/-- THE BODY AT AN ENTRY: what the body stores at (p, q) is the normalised enhanced row of row p, at column q. -/
theorem payload_apply (x0 : FVec Ideal S256x2048 .f32) (x1 : FVec Ideal S2048x64 .bf16) (x2 : FVec Ideal S1x64 .f32)
    (x3 : FVec Ideal S2048x2048 .bf16) (x4 : FVec Ideal S64x2048 .bf16) (x5 x6 x7 : FVec Ideal S1x2048 .f32)
    (p : Fin 256) (q : Fin 2048) :
    k0_pay1 (F := Ideal) (k0_pay2 (F := Ideal) x0 x1 x2 x4 x3 x5) x6 x7 (ix2 p q)
      = rowNorm (enhancedSplit (fun e => x0 (ix2 p e)) (fun e k => x1 (ix2 e k)) (fun k => x2 (ix2 (0 : Fin 1) k))
            (fun e d => x3 (ix2 e d)) (fun k d => x4 (ix2 k d)) (fun d => x5 (ix2 (0 : Fin 1) d)))
          (fun d => x6 (ix2 (0 : Fin 1) d)) (fun d => x7 (ix2 (0 : Fin 1) d)) q := by
  rw [pay_eq, normBlock_apply]
  exact congrArg (fun r => rowNorm r _ _ q) (funext fun d => enhBlock_apply x0 x1 x2 x4 x3 x5 p d)

end Cert.KernelIdeal.BodyValue

end
-- ==== Proof.ArrayValue.lean ====
/-
  From the blocks to the output array.

  The output array has 32768 rows of 2048 entries and is written in 128 blocks of 256 rows: point `t` of the grid
  writes rows `256 t … 256 t + 255`. At point `t` the body reads block `t` of the input rows (the same 256 rows of
  the [32768, 2048] input array) and the seven other arrays whole, and stores, at entry `(p, q)` of its block, the
  normalised enhanced row of the block's row `p` at column `q`. Row `p` of block `t` is row `256 t + p` of the
  array, so the block written at point `t` is block `t` of ONE function of the eight arrays: entry `(r, q)` is the
  normalised enhanced row of row `r`, at column `q`. Every row `r` lies in the block of point `r / 256`, so the
  blocks cover the array, and the array ends holding that function.
-/
import proofs.«138103_j34187939676370_1_alg».proof.Proof.Gen.KernelIdeal.Frame
import proofs.«138103_j34187939676370_1_alg».proof.Proof.Payload
import proofs.«138103_j34187939676370_1_alg».proof.Proof.Spec
import Idealize.ShloMosaic.Lib.Pipeline.Value
import Idealize.ShloMosaic.Lib.ValueIdx
import Idealize.ShloMosaic.Lib.Tactic

noncomputable section
namespace Cert.KernelIdeal.ArrayValue
open Cert.KernelIdeal Cert.KernelIdeal.Gen Cert.KernelIdeal.BodyValue Cert.MemoryNorm Idealize.ShloMosaic Idealize.ShloMosaic.TcCoe Idealize.ShloMosaic.ValueIdx Idealize.SL.Sem
open Idealize.ShloMosaic.Pipeline (Dat)
variable (m : (ℓ : Loc nD τ sig) → Buf (Elt Ideal) ℓ)

/-- The zero offsets of a whole-block rectangle, as a constant function. -/
theorem zero_offsets : (![0, 0] : Fin 2 → Nat) = fun _ => 0 := funext fun a => by fin_cases a <;> rfl

/-- The row windows (the input rows and the output rows) sit at block `(t, 0)` at point `t`. -/
theorem index_rows : ∀ t : Fin cfg0.N, win0_0.index t (0 : Fin 2) = t.val ∧ win0_0.index t (1 : Fin 2) = 0
    ∧ win0_8.index t (0 : Fin 2) = t.val ∧ win0_8.index t (1 : Fin 2) = 0 :=
  (by decide +kernel : ∀ t : Fin grid0.N, _)

/-- The seven whole windows sit at block `(0, 0)` at every point. -/
theorem index_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Block `t` of the input rows is rows `256 t … 256 t + 255` of the input array. -/
theorem rows_block_apply (c : Dev nD) (t : Fin cfg0.N) (p : Fin 256) (e : Fin 2048) (r : Fin 32768)
    (hr : r.val = t.val * 256 + p.val) :
    (iblk m c 0 t : FVec Ideal S256x2048 .f32) (ix2 p e) = (V m c main_v10 : S32768x2048.Idx → EReal) (ix2 r e) := by
  obtain ⟨h0, h1, -, -⟩ := index_rows t
  unfold iblk
  rw [View.read_apply]
  refine congrArg (V m c main_v10) ?_
  funext a
  apply Fin.ext
  match a with
  | ⟨0, _⟩ => show win0_0.index t (0 : Fin 2) * 256 + 1 * p.val = r.val; rw [h0, hr]; omega
  | ⟨1, _⟩ => show win0_0.index t (1 : Fin 2) * 2048 + 1 * e.val = e.val; rw [h1]; omega

/-- The projection window's block is the whole projection matrix. -/
theorem projection_block_apply (c : Dev nD) (t : Fin cfg0.N) (a : Fin 2048) (b : Fin 64) :
    (iblk m c 1 t : FVec Ideal S2048x64 .bf16) (ix2 a b) = (V m c main_v3 : S2048x64.Idx → EReal) (ix2 a b) := by
  obtain ⟨h0, h1, -, -, -, -, -, -, -, -, -, -, -, -⟩ := index_whole t
  unfold iblk
  rw [View.read_apply]
  refine congrArg (V m c main_v3) ?_
  funext d
  apply Fin.ext
  match d with
  | ⟨0, _⟩ => show win0_1.index t (0 : Fin 2) * 2048 + 1 * a.val = a.val; rw [h0]; omega
  | ⟨1, _⟩ => show win0_1.index t (1 : Fin 2) * 64 + 1 * b.val = b.val; rw [h1]; omega

/-- The gate bias window's block is the whole one-row array. -/
theorem slot_bias_block_apply (c : Dev nD) (t : Fin cfg0.N) (a : Fin 1) (b : Fin 64) :
    (iblk m c 2 t : FVec Ideal S1x64 .f32) (ix2 a b) = (V m c main_v6 : S1x64.Idx → EReal) (ix2 a b) := by
  obtain ⟨-, -, h0, h1, -, -, -, -, -, -, -, -, -, -⟩ := index_whole t
  unfold iblk
  rw [View.read_apply]
  refine congrArg (V m c main_v6) ?_
  funext d
  apply Fin.ext
  match d with
  | ⟨0, _⟩ => show win0_2.index t (0 : Fin 2) * 1 + 1 * a.val = a.val; rw [h0]; omega
  | ⟨1, _⟩ => show win0_2.index t (1 : Fin 2) * 64 + 1 * b.val = b.val; rw [h1]; omega

/-- The upper-half matrix window's block is the whole matrix. -/
theorem upper_block_apply (c : Dev nD) (t : Fin cfg0.N) (a : Fin 2048) (b : Fin 2048) :
    (iblk m c 3 t : FVec Ideal S2048x2048 .bf16) (ix2 a b) = (V m c main_v4 : S2048x2048.Idx → EReal) (ix2 a b) := by
  obtain ⟨-, -, -, -, h0, h1, -, -, -, -, -, -, -, -⟩ := index_whole t
  unfold iblk
  rw [View.read_apply]
  refine congrArg (V m c main_v4) ?_
  funext d
  apply Fin.ext
  match d with
  | ⟨0, _⟩ => show win0_3.index t (0 : Fin 2) * 2048 + 1 * a.val = a.val; rw [h0]; omega
  | ⟨1, _⟩ => show win0_3.index t (1 : Fin 2) * 2048 + 1 * b.val = b.val; rw [h1]; omega

/-- The projected slots window's block is the whole array. -/
theorem projected_slots_block_apply (c : Dev nD) (t : Fin cfg0.N) (a : Fin 64) (b : Fin 2048) :
    (iblk m c 4 t : FVec Ideal S64x2048 .bf16) (ix2 a b) = (V m c main_v5 : S64x2048.Idx → EReal) (ix2 a b) := by
  obtain ⟨-, -, -, -, -, -, h0, h1, -, -, -, -, -, -⟩ := index_whole t
  unfold iblk
  rw [View.read_apply]
  refine congrArg (V m c main_v5) ?_
  funext d
  apply Fin.ext
  match d with
  | ⟨0, _⟩ => show win0_4.index t (0 : Fin 2) * 64 + 1 * a.val = a.val; rw [h0]; omega
  | ⟨1, _⟩ => show win0_4.index t (1 : Fin 2) * 2048 + 1 * b.val = b.val; rw [h1]; omega

/-- The bias window's block is the whole one-row array. -/
theorem bias_block_apply (c : Dev nD) (t : Fin cfg0.N) (a : Fin 1) (b : Fin 2048) :
    (iblk m c 5 t : FVec Ideal S1x2048 .f32) (ix2 a b) = (V m c main_v7 : S1x2048.Idx → EReal) (ix2 a b) := by
  obtain ⟨-, -, -, -, -, -, -, -, h0, h1, -, -, -, -⟩ := index_whole t
  unfold iblk
  rw [View.read_apply]
  refine congrArg (V m c main_v7) ?_
  funext d
  apply Fin.ext
  match d with
  | ⟨0, _⟩ => show win0_5.index t (0 : Fin 2) * 1 + 1 * a.val = a.val; rw [h0]; omega
  | ⟨1, _⟩ => show win0_5.index t (1 : Fin 2) * 2048 + 1 * b.val = b.val; rw [h1]; omega

/-- The entrywise scale window's block is the whole one-row array. -/
theorem scale_block_apply (c : Dev nD) (t : Fin cfg0.N) (a : Fin 1) (b : Fin 2048) :
    (iblk m c 6 t : FVec Ideal S1x2048 .f32) (ix2 a b) = (V m c main_v8 : S1x2048.Idx → EReal) (ix2 a b) := by
  obtain ⟨-, -, -, -, -, -, -, -, -, -, h0, h1, -, -⟩ := index_whole t
  unfold iblk
  rw [View.read_apply]
  refine congrArg (V m c main_v8) ?_
  funext d
  apply Fin.ext
  match d with
  | ⟨0, _⟩ => show win0_6.index t (0 : Fin 2) * 1 + 1 * a.val = a.val; rw [h0]; omega
  | ⟨1, _⟩ => show win0_6.index t (1 : Fin 2) * 2048 + 1 * b.val = b.val; rw [h1]; omega

/-- The entrywise shift window's block is the whole one-row array. -/
theorem shift_block_apply (c : Dev nD) (t : Fin cfg0.N) (a : Fin 1) (b : Fin 2048) :
    (iblk m c 7 t : FVec Ideal S1x2048 .f32) (ix2 a b) = (V m c main_v9 : S1x2048.Idx → EReal) (ix2 a b) := by
  obtain ⟨-, -, -, -, -, -, -, -, -, -, -, -, h0, h1⟩ := index_whole t
  unfold iblk
  rw [View.read_apply]
  refine congrArg (V m c main_v9) ?_
  funext d
  apply Fin.ext
  match d with
  | ⟨0, _⟩ => show win0_7.index t (0 : Fin 2) * 1 + 1 * a.val = a.val; rw [h0]; omega
  | ⟨1, _⟩ => show win0_7.index t (1 : Fin 2) * 2048 + 1 * b.val = b.val; rw [h1]; omega

/-- entry (r, q) of the output array as a function of the eight input arrays -/
def rowsOutAt (X : S32768x2048.Idx → EReal) (WG : S2048x64.Idx → EReal) (BG : S1x64.Idx → EReal) (W1 : S2048x2048.Idx → EReal)
    (SP : S64x2048.Idx → EReal) (BU GA BE : S1x2048.Idx → EReal) (r : Fin 32768) (q : Fin 2048) : EReal :=
  rowNorm (enhancedSplit (fun e => X (ix2 r e)) (fun e k => WG (ix2 e k)) (fun k => BG (ix2 (0 : Fin 1) k))
      (fun e d => W1 (ix2 e d)) (fun k d => SP (ix2 k d)) (fun d => BU (ix2 (0 : Fin 1) d)))
    (fun d => GA (ix2 (0 : Fin 1) d)) (fun d => BE (ix2 (0 : Fin 1) d)) q

/-- the output array -/
def rowsOut (X : S32768x2048.Idx → EReal) (WG : S2048x64.Idx → EReal) (BG : S1x64.Idx → EReal) (W1 : S2048x2048.Idx → EReal)
    (SP : S64x2048.Idx → EReal) (BU GA BE : S1x2048.Idx → EReal) : S32768x2048.Idx → EReal :=
  fun i => rowsOutAt X WG BG W1 SP BU GA BE (i 0) (i 1)

theorem rowsOut_ix2 (X : S32768x2048.Idx → EReal) (WG : S2048x64.Idx → EReal) (BG : S1x64.Idx → EReal)
    (W1 : S2048x2048.Idx → EReal) (SP : S64x2048.Idx → EReal) (BU GA BE : S1x2048.Idx → EReal)
    (r : Fin 32768) (q : Fin 2048) :
    rowsOut X WG BG W1 SP BU GA BE (ix2 r q) = rowsOutAt X WG BG W1 SP BU GA BE r q := rfl

/-- What the body stores at entry `(p, q)` of block `t` is entry `(256 t + p, q)` of the output function of the
    eight arrays: the body's entry is the normalised enhanced row of the block's row `p`, which is row `256 t + p` of
    the input array, and every other block is its whole array. -/
theorem block_entry (c : Dev nD) (t : Fin cfg0.N) (p : Fin 256) (q : Fin 2048) (r : Fin 32768)
    (hr : r.val = t.val * 256 + p.val) :
    k0_pay1 (F := Ideal) (k0_pay2 (F := Ideal) (iblk m c 0 t) (iblk m c 1 t) (iblk m c 2 t) (iblk m c 4 t) (iblk m c 3 t) (iblk m c 5 t))
        (iblk m c 6 t) (iblk m c 7 t) (ix2 p q)
      = rowsOutAt (V m c main_v10) (V m c main_v3) (V m c main_v6) (V m c main_v4) (V m c main_v5) (V m c main_v7)
          (V m c main_v8) (V m c main_v9) r q := by
  refine (payload_apply _ _ _ _ _ _ _ _ p q).trans ?_
  unfold rowsOutAt
  simp only [rows_block_apply m c t p _ r hr, projection_block_apply m c t, slot_bias_block_apply m c t,
    upper_block_apply m c t, projected_slots_block_apply m c t, bias_block_apply m c t, scale_block_apply m c t,
    shift_block_apply m c t]

/-- WHAT POINT `t` WRITES BACK is block `t` of the output function of the eight arrays as the region finds them. -/
theorem flushed_eq (c : Dev nD) (t : Fin cfg0.N) :
    (dats m 0 c).flushed 8 t = ((cfg0.win 8).blk t).view.read (Elt Ideal)
      (rowsOut (V m c main_v10) (V m c main_v3) (V m c main_v6) (V m c main_v4) (V m c main_v5) (V m c main_v7)
        (V m c main_v8) (V m c main_v9)) := by
  show (cfg0.win 8).cut (grid0.coords t) ((dats m 0 c).after 8 t) = _
  rw [after0_8]
  unfold out0_8
  rw [View.canon_unit_zero zero_offsets]
  simp only [View.ld_unit_zero (S := S256x2048) zero_offsets, View.ld_unit_zero (S := S2048x64) zero_offsets,
    View.ld_unit_zero (S := S1x64) zero_offsets, View.ld_unit_zero (S := S64x2048) zero_offsets,
    View.ld_unit_zero (S := S2048x2048) zero_offsets, View.ld_unit_zero (S := S1x2048) zero_offsets]
  funext j
  obtain ⟨p, q, rfl⟩ : ∃ (p : Fin 256) (q : Fin 2048), j = ix2 p q := ⟨j 0, j 1, eq_ix2 j⟩
  have hN : cfg0.N = 128 := N_0
  have hr : t.val * 256 + p.val < 32768 := by have := t.isLt; have := p.isLt; omega
  obtain ⟨-, -, h2, h3⟩ := index_rows t
  rw [View.read_apply]
  have he : ((cfg0.win 8).blk t).view.emb (ix2 p q) = ix2 (⟨t.val * 256 + p.val, hr⟩ : Fin 32768) q := by
    funext a
    apply Fin.ext
    match a with
    | ⟨0, _⟩ => show win0_8.index t (0 : Fin 2) * 256 + 1 * p.val = t.val * 256 + p.val; rw [h2]; omega
    | ⟨1, _⟩ => show win0_8.index t (1 : Fin 2) * 2048 + 1 * q.val = q.val; rw [h3]; omega
  rw [he, rowsOut_ix2]
  exact block_entry m c t p q ⟨t.val * 256 + p.val, hr⟩ rfl

/-- An index of the output array is in point `t`'s block iff each coordinate is in the block's range on its axis. -/
theorem mem_block (t : Fin cfg0.N) (i : S32768x2048.Idx) :
    i ∈ ((cfg0.win 8).blk t).view.set ↔ ∀ a : Fin 2, win0_8.index t a * S256x2048.size a ≤ (i a).val
      ∧ (i a).val < win0_8.index t a * S256x2048.size a + S256x2048.size a := by
  show i ∈ ((View.whole main_v11).slice (win0_8.rect t)).set ↔ _
  rw [View.set_slice_whole, Rect.mem_set_unit]
  exact Iff.rfl

/-- THE COVER: row `r` of the output array is in the block of point `r / 256`, which writes back. -/
theorem cover (i : S32768x2048.Idx) :
    ∃ t : Fin cfg0.N, (cfg0.win 8).flush t = true ∧ i ∈ ((cfg0.win 8).blk t).view.set := by
  have hN : cfg0.N = 128 := N_0
  have hi0 : (i 0).val < 32768 := (i 0).isLt
  have hi1 : (i 1).val < 2048 := (i 1).isLt
  obtain ⟨t, ht⟩ : ∃ t : Fin cfg0.N, t.val = (i 0).val / 256 := ⟨⟨(i 0).val / 256, by omega⟩, rfl⟩
  obtain ⟨-, -, h2, h3⟩ := index_rows t
  refine ⟨t, flush0_8 t, ?_⟩
  rw [mem_block]
  intro a
  match a with
  | ⟨0, _⟩ =>
    show win0_8.index t (0 : Fin 2) * 256 ≤ (i 0).val ∧ (i 0).val < win0_8.index t (0 : Fin 2) * 256 + 256
    rw [h2]; omega
  | ⟨1, _⟩ =>
    show win0_8.index t (1 : Fin 2) * 2048 ≤ (i 1).val ∧ (i 1).val < win0_8.index t (1 : Fin 2) * 2048 + 2048
    rw [h3]; omega

/-- THE ARRAY after the run -/
theorem final8 (c : Dev nD) :
    (dats m 0 c).arrAt 8 cfg0.N
      = rowsOut (V m c main_v10) (V m c main_v3) (V m c main_v6) (V m c main_v4) (V m c main_v5) (V m c main_v7)
          (V m c main_v8) (V m c main_v9) :=
  (dats m 0 c).arrAt_eq_of_cover 8
    (rowsOut (V m c main_v10) (V m c main_v3) (V m c main_v6) (V m c main_v4) (V m c main_v5) (V m c main_v7)
      (V m c main_v8) (V m c main_v9))
    (fun t _ => flushed_eq m c t) cover

end Cert.KernelIdeal.ArrayValue
end
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.EntryValue.lean ====
/-
  What the kernel's window arrays hold when the region is entered, read at coordinates.

  Before the region the host cuts the [4096, 2048] matrix into its upper and lower halves, multiplies the [64, 2048]
  array by the lower half, changes three arrays' format (the identity on extended reals), puts a unit axis in front of
  four vectors and merges the two leading axes of the [8, 4096, 2048] input (row r = b · 4096 + s). Each lemma reads one
  of the resulting arrays at explicit coordinates in terms of the argument arrays as launched.
-/
import proofs.«138103_j34187939676370_1_alg».proof.Proof.Gen.KernelIdeal.Frame
import proofs.«138103_j34187939676370_1_alg».proof.Proof.LibMerge
import Idealize.ShloMosaic.Lib.StableHlo.Run
import Idealize.ShloMosaic.Lib.ValueLayout
import Idealize.ShloMosaic.Lib.Pipeline.Value
import Idealize.ShloMosaic.Lib.ValueIdx
import Idealize.ShloMosaic.PureOps.Ideal.Laws

noncomputable section
namespace Cert.KernelIdeal.EntryValue
open Cert.KernelIdeal Cert.KernelIdeal.Gen Idealize.ShloMosaic Idealize.ShloMosaic.TcCoe Idealize.ShloMosaic.ValueIdx Idealize.SL.Sem

/-- In the host's matrix product, the left index keeps the result's row on its free axis … -/
theorem lhs_row (i : S64x2048.Idx) (q : dot_S64x2048_S2048x2048_S64x2048_1_0_0_1_n_n.contr.Idx) : (dot_S64x2048_S2048x2048_S64x2048_1_0_0_1_n_n.lhsIdx i q 0).val = (i 0).val := by
  unfold DotDims.lhsIdx
  rw [dif_neg (show ¬(0 : Fin S64x2048.rank) ∈ dot_S64x2048_S2048x2048_S64x2048_1_0_0_1_n_n.lhsBatch by decide), dif_pos (show (0 : Fin S64x2048.rank) ∈ dot_S64x2048_S2048x2048_S64x2048_1_0_0_1_n_n.lhsNonContracting by decide)]
  rfl
/-- … and reads the contraction index on its contracted axis; -/
theorem lhs_contr (i : S64x2048.Idx) (q : dot_S64x2048_S2048x2048_S64x2048_1_0_0_1_n_n.contr.Idx) : (dot_S64x2048_S2048x2048_S64x2048_1_0_0_1_n_n.lhsIdx i q 1).val = (q ⟨0, by decide⟩).val :=
  dot_S64x2048_S2048x2048_S64x2048_1_0_0_1_n_n.lhsIdx_val_of_single rfl i q
/-- the right index reads the contraction index on its contracted axis … -/
theorem rhs_contr (i : S64x2048.Idx) (q : dot_S64x2048_S2048x2048_S64x2048_1_0_0_1_n_n.contr.Idx) : (dot_S64x2048_S2048x2048_S64x2048_1_0_0_1_n_n.rhsIdx i q 0).val = (q ⟨0, by decide⟩).val :=
  dot_S64x2048_S2048x2048_S64x2048_1_0_0_1_n_n.rhsIdx_val_of_single rfl i q
/-- … and keeps the result's column on its free axis. -/
theorem rhs_col (i : S64x2048.Idx) (q : dot_S64x2048_S2048x2048_S64x2048_1_0_0_1_n_n.contr.Idx) : (dot_S64x2048_S2048x2048_S64x2048_1_0_0_1_n_n.rhsIdx i q 1).val = (i 1).val := by
  unfold DotDims.rhsIdx
  rw [dif_neg (show ¬(1 : Fin S2048x2048.rank) ∈ dot_S64x2048_S2048x2048_S64x2048_1_0_0_1_n_n.rhsBatch by decide), dif_pos (show (1 : Fin S2048x2048.rank) ∈ dot_S64x2048_S2048x2048_S64x2048_1_0_0_1_n_n.rhsNonContracting by decide)]
  rfl

/-- The host's matrix product of a [64, 2048] by a [2048, 2048] array, at the extended reals: entry (k, d) is the sum
    over the contracted axis e of left (k, e) times right (e, d). -/
theorem dot_apply (l : FVec Ideal S64x2048 .f32) (r : FVec Ideal S2048x2048 .f32) (k : Fin 64) (d : Fin 2048) :
    Host.dotGeneral (F := Ideal) dot_S64x2048_S2048x2048_S64x2048_1_0_0_1_n_n none l r (ix2 k d) = ∑ e : Fin 2048, l (ix2 k e) * r (ix2 e d) := by
  simp only [Host.dotGeneral]
  rw [Ideal.dotGeneral_apply, ← Equiv.sum_comp (contrEquiv1 dot_S64x2048_S2048x2048_S64x2048_1_0_0_1_n_n 2048 rfl rfl).symm]
  refine Finset.sum_congr rfl fun e _ => ?_
  have he := contrEquiv1_symm_val dot_S64x2048_S2048x2048_S64x2048_1_0_0_1_n_n 2048 rfl rfl e
  have el : dot_S64x2048_S2048x2048_S64x2048_1_0_0_1_n_n.lhsIdx (ix2 k d) ((contrEquiv1 dot_S64x2048_S2048x2048_S64x2048_1_0_0_1_n_n 2048 rfl rfl).symm e) = ix2 k e := funext fun a => Fin.ext (by
    match a with
    | ⟨0, _⟩ => exact lhs_row _ _
    | ⟨1, _⟩ => exact (lhs_contr _ _).trans he)
  have er : dot_S64x2048_S2048x2048_S64x2048_1_0_0_1_n_n.rhsIdx (ix2 k d) ((contrEquiv1 dot_S64x2048_S2048x2048_S64x2048_1_0_0_1_n_n 2048 rfl rfl).symm e) = ix2 e d := funext fun a => Fin.ext (by
    match a with
    | ⟨0, _⟩ => exact (rhs_contr _ _).trans he
    | ⟨1, _⟩ => exact rhs_col _ _)
  rw [el, er]

/-- The rows 0 … 2047 of a [4096, 2048] array, then a change of format: entry (e, d) is the array's entry (e, d). -/
theorem upper_apply (x : FVec Ideal S4096x2048 .f32) (hs : S4096x2048.Slices ![0, 0] S2048x2048) (hb : FTy.bits .bf16 < FTy.bits .f32)
    (e d : Fin 2048) :
    (truncf .bf16 (extractStridedSlice S2048x2048 ![0, 0] x hs : FVec Ideal S2048x2048 .f32) hb : FVec Ideal S2048x2048 .bf16) (ix2 e d)
      = x (ix2 (⟨e.val, by omega⟩ : Fin 4096) d) :=
  (truncf_apply (ψ := .bf16) (extractStridedSlice S2048x2048 ![0, 0] x hs : FVec Ideal S2048x2048 .f32) hb (ix2 e d)).trans
    (slice2_axis0_apply 0 x hs e d (⟨e.val, by omega⟩ : Fin 4096) (by show e.val = 0 + e.val; omega))

/-- The rows 2048 … 4095 of a [4096, 2048] array: entry (e, d) is the array's entry (2048 + e, d). -/
theorem lower_apply (x : FVec Ideal S4096x2048 .f32) (hs : S4096x2048.Slices ![2048, 0] S2048x2048) (e d : Fin 2048) :
    (extractStridedSlice S2048x2048 ![2048, 0] x hs : FVec Ideal S2048x2048 .f32) (ix2 e d)
      = x (ix2 (⟨2048 + e.val, by omega⟩ : Fin 4096) d) :=
  slice2_axis0_apply 2048 x hs e d (⟨2048 + e.val, by omega⟩ : Fin 4096) rfl

/-- The product of a [64, 2048] array with the rows 2048 … 4095 of a [4096, 2048] array, then a change of format:
    entry (k, d) is the sum over e of left (k, e) times the array's entry (2048 + e, d). -/
theorem projected_apply (l : S64x2048.Idx → EReal) (x : S4096x2048.Idx → EReal) (hs : S4096x2048.Slices ![2048, 0] S2048x2048)
    (hb : FTy.bits .bf16 < FTy.bits .f32) (k : Fin 64) (d : Fin 2048) :
    (truncf .bf16 (Host.dotGeneral (F := Ideal) (φ₁ := .f32) (φ₂ := .f32) dot_S64x2048_S2048x2048_S64x2048_1_0_0_1_n_n none l
        (extractStridedSlice S2048x2048 ![2048, 0] x hs : FVec Ideal S2048x2048 .f32) : FVec Ideal S64x2048 .f32) hb
      : FVec Ideal S64x2048 .bf16) (ix2 k d)
      = ∑ e : Fin 2048, l (ix2 k e) * x (ix2 (⟨2048 + e.val, by omega⟩ : Fin 4096) d) := by
  refine (truncf_apply (φ := .f32) (ψ := .bf16) (Host.dotGeneral (F := Ideal) (φ₁ := .f32) (φ₂ := .f32) dot_S64x2048_S2048x2048_S64x2048_1_0_0_1_n_n none l
        (extractStridedSlice S2048x2048 ![2048, 0] x hs : FVec Ideal S2048x2048 .f32) : FVec Ideal S64x2048 .f32) hb (ix2 k d)).trans ?_
  refine (dot_apply l _ k d).trans ?_
  refine Finset.sum_congr rfl fun e _ => ?_
  rw [lower_apply]

variable (m : (ℓ : Loc nD τ sig) → Buf (Elt Ideal) ℓ)

/-- the gate matrix: the change of format keeps every entry -/
theorem entry_gateMatrix (c : Dev nD) (e : Fin 2048) (k : Fin 64) :
    (V m c main_v3 : S2048x64.Idx → EReal) (ix2 e k) = (m ((c : Thread nD τ).loc main_arg2) : S2048x64.Idx → EReal) (ix2 e k) := by
  have h : (V m c main_v3 : S2048x64.Idx → EReal)
      = (truncf .bf16 (m ((c : Thread nD τ).loc main_arg2) : FVec Ideal S2048x64 .f32) Facts₀.bitsLt_bf16_f32 : FVec Ideal S2048x64 .bf16) := by
    show StableHlo.after hostOps0 (fun b => m (c, b)) (Proc.devRef .tc main_v3) = _
    after_results
  rw [h]
  rfl

/-- the rows: entry (r, e) of the [32768, 2048] array is entry (b, s, e) of the argument, r = b·4096 + s -/
theorem entry_rows (c : Dev nD) (b : Fin 8) (s : Fin 4096) (e : Fin 2048) (r : Fin 32768) (hr : r.val = b.val * 4096 + s.val) :
    (V m c main_v10 : S32768x2048.Idx → EReal) (ix2 r e) = (m ((c : Thread nD τ).loc main_arg0) : S8x4096x2048.Idx → EReal) (ix3 b s e) := by
  have h : (V m c main_v10 : S32768x2048.Idx → EReal)
      = (shapeCast S32768x2048 (m ((c : Thread nD τ).loc main_arg0) : S8x4096x2048.Idx → EReal) Facts₀.shapeCasts_S8x4096x2048_S32768x2048 : S32768x2048.Idx → EReal) := by
    show StableHlo.after hostOps0 (fun b => m (c, b)) (Proc.devRef .tc main_v10) = _
    after_results
    rfl
  rw [h]
  exact shapeCast_nab_mb_apply _ _ b s e r hr

/-- the gate bias: the unit axis in front changes no entry -/
theorem entry_gateBias (c : Dev nD) (u : Fin 1) (k : Fin 64) :
    (V m c main_v6 : S1x64.Idx → EReal) (ix2 u k) = (m ((c : Thread nD τ).loc main_arg3) : S64.Idx → EReal) (ix1 k) := by
  have h : (V m c main_v6 : S1x64.Idx → EReal)
      = (shapeCast S1x64 (m ((c : Thread nD τ).loc main_arg3) : S64.Idx → EReal) Facts₀.shapeCasts_S64_S1x64 : S1x64.Idx → EReal) := by
    show StableHlo.after hostOps0 (fun b => m (c, b)) (Proc.devRef .tc main_v6) = _
    after_results
    rfl
  rw [h]
  exact shapeCast_a_1a_apply _ _ u k

/-- the upper half of the square-matrix argument: rows 0 … 2047, the format change keeping every entry -/
theorem entry_upper (c : Dev nD) (e d : Fin 2048) :
    (V m c main_v4 : S2048x2048.Idx → EReal) (ix2 e d) = (m ((c : Thread nD τ).loc main_arg4) : S4096x2048.Idx → EReal) (ix2 (⟨e.val, by omega⟩ : Fin 4096) d) := by
  have h : (V m c main_v4 : S2048x2048.Idx → EReal)
      = (truncf .bf16 (extractStridedSlice S2048x2048 ![0, 0] (m ((c : Thread nD τ).loc main_arg4) : FVec Ideal S4096x2048 .f32)
          Facts₀.slices_S4096x2048_S2048x2048_0_0 : FVec Ideal S2048x2048 .f32) Facts₀.bitsLt_bf16_f32 : FVec Ideal S2048x2048 .bf16) := by
    show StableHlo.after hostOps0 (fun b => m (c, b)) (Proc.devRef .tc main_v4) = _
    after_results
  rw [h]
  exact upper_apply _ _ _ e d

/-- the projected lower half: the product of the [64, 2048] argument with rows 2048 … 4095 of the square-matrix argument
    (the product and the sum are the extended reals') -/
theorem entry_projected (c : Dev nD) (k : Fin 64) (d : Fin 2048) :
    (V m c main_v5 : S64x2048.Idx → EReal) (ix2 k d)
      = ∑ e : Fin 2048, HMul.hMul (α := EReal) (β := EReal) (γ := EReal)
          ((m ((c : Thread nD τ).loc main_arg1) : S64x2048.Idx → EReal) (ix2 k e))
          ((m ((c : Thread nD τ).loc main_arg4) : S4096x2048.Idx → EReal) (ix2 (⟨2048 + e.val, by omega⟩ : Fin 4096) d)) := by
  have h : (V m c main_v5 : S64x2048.Idx → EReal)
      = (truncf .bf16 (Host.dotGeneral (F := Ideal) (φ₁ := .f32) (φ₂ := .f32) dot_S64x2048_S2048x2048_S64x2048_1_0_0_1_n_n none
          (m ((c : Thread nD τ).loc main_arg1) : FVec Ideal S64x2048 .f32)
          (extractStridedSlice S2048x2048 ![2048, 0] (m ((c : Thread nD τ).loc main_arg4) : FVec Ideal S4096x2048 .f32)
            Facts₀.slices_S4096x2048_S2048x2048_2048_0 : FVec Ideal S2048x2048 .f32) : FVec Ideal S64x2048 .f32)
          Facts₀.bitsLt_bf16_f32 : FVec Ideal S64x2048 .bf16) := by
    show StableHlo.after hostOps0 (fun b => m (c, b)) (Proc.devRef .tc main_v5) = _
    after_results
  rw [h]
  exact projected_apply _ _ _ _ k d

/-- the bias row -/
theorem entry_bias (c : Dev nD) (u : Fin 1) (d : Fin 2048) :
    (V m c main_v7 : S1x2048.Idx → EReal) (ix2 u d) = (m ((c : Thread nD τ).loc main_arg5) : S2048.Idx → EReal) (ix1 d) := by
  have h : (V m c main_v7 : S1x2048.Idx → EReal)
      = (shapeCast S1x2048 (m ((c : Thread nD τ).loc main_arg5) : S2048.Idx → EReal) Facts₀.shapeCasts_S2048_S1x2048 : S1x2048.Idx → EReal) := by
    show StableHlo.after hostOps0 (fun b => m (c, b)) (Proc.devRef .tc main_v7) = _
    after_results
    rfl
  rw [h]
  exact shapeCast_a_1a_apply _ _ u d

/-- the scale row -/
theorem entry_scale (c : Dev nD) (u : Fin 1) (d : Fin 2048) :
    (V m c main_v8 : S1x2048.Idx → EReal) (ix2 u d) = (m ((c : Thread nD τ).loc main_arg6) : S2048.Idx → EReal) (ix1 d) := by
  have h : (V m c main_v8 : S1x2048.Idx → EReal)
      = (shapeCast S1x2048 (m ((c : Thread nD τ).loc main_arg6) : S2048.Idx → EReal) Facts₀.shapeCasts_S2048_S1x2048 : S1x2048.Idx → EReal) := by
    show StableHlo.after hostOps0 (fun b => m (c, b)) (Proc.devRef .tc main_v8) = _
    after_results
    rfl
  rw [h]
  exact shapeCast_a_1a_apply _ _ u d

/-- the shift row -/
theorem entry_shift (c : Dev nD) (u : Fin 1) (d : Fin 2048) :
    (V m c main_v9 : S1x2048.Idx → EReal) (ix2 u d) = (m ((c : Thread nD τ).loc main_arg7) : S2048.Idx → EReal) (ix1 d) := by
  have h : (V m c main_v9 : S1x2048.Idx → EReal)
      = (shapeCast S1x2048 (m ((c : Thread nD τ).loc main_arg7) : S2048.Idx → EReal) Facts₀.shapeCasts_S2048_S1x2048 : S1x2048.Idx → EReal) := by
    show StableHlo.after hostOps0 (fun b => m (c, b)) (Proc.devRef .tc main_v9) = _
    after_results
    rfl
  rw [h]
  exact shapeCast_a_1a_apply _ _ u d

end Cert.KernelIdeal.EntryValue

end
-- ==== Proof.KernelRun.lean ====
/-
  The kernel program's result, as a function of its argument arrays.

  Before the region the host cuts the [4096, 2048] matrix into its two halves, multiplies the slots by the lower
  half, and re-lays the biases, the scales and the input (two leading axes merged: row r = b · 4096 + s); after the
  region it splits the rows back into (b, s). So entry (b, s, d) of the result is the normalised enhanced row of
  input row (b, s), in the split arrangement, at column d.
-/
import proofs.«138103_j34187939676370_1_alg».proof.Proof.Gen.KernelIdeal.Frame
import proofs.«138103_j34187939676370_1_alg».proof.Proof.ArrayValue
import proofs.«138103_j34187939676370_1_alg».proof.Proof.EntryValue
import proofs.«138103_j34187939676370_1_alg».proof.Proof.ArraySpec
import proofs.«138103_j34187939676370_1_alg».proof.Proof.LibMerge
import Idealize.ShloMosaic.Lib.StableHlo.Run
import Idealize.ShloMosaic.Lib.Pipeline.Value
import Idealize.ShloMosaic.Lib.ValueIdx

noncomputable section

namespace Cert.KernelIdeal.RunValue

open Cert.KernelIdeal Cert.KernelIdeal.Gen Cert.KernelIdeal.ArrayValue Cert.KernelIdeal.EntryValue Cert.MemoryNorm
open Idealize.ShloMosaic Idealize.ShloMosaic.TcCoe Idealize.ShloMosaic.ValueIdx Idealize.SL.Sem

variable (m : (ℓ : Loc nD τ sig) → Buf (Elt Ideal) ℓ) (ρ : Dev nD → PrngReg)

/-- Entry (r, d) of the array the region writes, r = b · 4096 + s, in terms of the argument arrays: each window's array
    is read where the host operations before the region put the arguments' entries. -/
theorem rowsOutAt_entry (c : Dev nD) (b : Fin 8) (s : Fin 4096) (d : Fin 2048) (r : Fin 32768)
    (hr : r.val = b.val * 4096 + s.val) :
    rowsOutAt (V m c main_v10) (V m c main_v3) (V m c main_v6) (V m c main_v4) (V m c main_v5) (V m c main_v7)
        (V m c main_v8) (V m c main_v9) r d
      = splitAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) b s d := by
  unfold rowsOutAt splitAt
  simp only [entry_rows m c b s _ r hr, entry_gateMatrix m c, entry_gateBias m c, entry_upper m c, entry_projected m c,
    entry_bias m c, entry_scale m c, entry_shift m c]

/-- The program's result array: the region's array with its rows split back into (b, s). -/
theorem result_eq (c : Dev nD) :
    Pipeline.afterTail₀ cfgs (dats m) 0 (V0 m) [hostOps1] c main_v12
      = splitArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  show StableHlo.after hostOps1 _ (Proc.devRef .tc main_v12) = _
  after_results
  rw [Pipeline.withArrays_arr spec0 launch0.win.arr_inj c _ _ 8, final8]
  funext i
  obtain ⟨b, s, d, rfl⟩ : ∃ (b : Fin 8) (s : Fin 4096) (d : Fin 2048), i = ix3 b s d := ⟨i 0, i 1, i 2, eq_ix3 i⟩
  have hlt : b.val * 4096 + s.val < 32768 := by have := b.isLt; have := s.isLt; omega
  rw [splitArr_ix3]
  refine (shapeCast_mb_nab_apply _ _ b s d ⟨b.val * 4096 + s.val, hlt⟩ rfl).trans ?_
  rw [rowsOut_ix2]
  exact rowsOutAt_entry m c b s d _ rfl

/-- The run, read: every weakly fair execution of the program terminates with the result array at the split arrangement
    of the argument arrays and the arguments unchanged. -/
theorem run : θ_run defs (onTc (τ := τ) (main (F := Ideal))) ⟨m, fun _ => 0, ρ⟩ (fun r => ∀ c : Dev nD,
      r.2.mem ((c.tc : Thread nD τ).loc main_v12)
        = splitArr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.RunValue

end
-- ==== Proof.lean ====
/-
  A gated memory read with a row normalisation: the kernel against its reference, on the extended reals.

  Both programs take an input x : [8, 4096, 2048], 64 memory slots, a gate matrix and bias, a [4096, 2048] update
  matrix and bias, and a scale and a shift. For each input row, slot k's gate is the logistic function of the row's
  projection on the slot plus a bias (the reference spells it 1 / (1 + exp (−z)), which is the logistic function by
  definition). The reference joins the row with what the gates retrieve from the slots and multiplies the joined row of
  4096 entries by the update matrix. The kernel never forms the joined row: the host multiplies the slots by the lower
  half of the update matrix once, and the kernel adds the row times the upper half to the gates times those projected
  slots. The two agree by splitting the sum over 4096 entries into its halves and by the associativity of the matrix
  product, which holds because every input is finite (the precondition): gates of real data are real, and on real
  numbers products distribute over sums. Both programs then add the bias and normalise the row in the same way (mean
  and variance by a sum over 2048 divided by 2048, the same constant under the reciprocal square root, scale, shift), so
  equal enhanced rows give equal results. Changes of float format are the identity on the extended reals.

  The kernel's frames are the generated ones; the reference's frame is its generated run with the result dropped; the
  idealization rewrote nothing, so there is nothing to preserve. What the kernel's result array holds is read off the
  generated frame run: the body's stored value at an entry (Payload), the window arrays at region entry (EntryValue),
  the blocks assembled into the array (ArrayValue), and the host's final re-layout (KernelRun). What the reference
  computes is read off its generated run (RefRead).
-/
import proofs.«138103_j34187939676370_1_alg».proof.Defs
import proofs.«138103_j34187939676370_1_alg».proof.Proof.Gen.Kernel
import proofs.«138103_j34187939676370_1_alg».proof.Proof.Gen.Kernel.Skeleton
import proofs.«138103_j34187939676370_1_alg».proof.Proof.Gen.Kernel.Launch
import proofs.«138103_j34187939676370_1_alg».proof.Proof.Gen.Kernel.Points
import proofs.«138103_j34187939676370_1_alg».proof.Proof.Gen.Kernel.Frame
import proofs.«138103_j34187939676370_1_alg».proof.Proof.Gen.KernelIdeal
import proofs.«138103_j34187939676370_1_alg».proof.Proof.Gen.KernelIdeal.Skeleton
import proofs.«138103_j34187939676370_1_alg».proof.Proof.Gen.KernelIdeal.Launch
import proofs.«138103_j34187939676370_1_alg».proof.Proof.Gen.KernelIdeal.Points
import proofs.«138103_j34187939676370_1_alg».proof.Proof.Gen.KernelIdeal.Frame
import proofs.«138103_j34187939676370_1_alg».proof.Proof.Gen.ReferenceIdeal
import proofs.«138103_j34187939676370_1_alg».proof.Proof.Gen.Pre_finite_inputs
import proofs.«138103_j34187939676370_1_alg».proof.Proof.Gen.ReferenceIdeal.Run
import proofs.«138103_j34187939676370_1_alg».proof.Proof.Gen.ReferenceIdeal.Read
import proofs.«138103_j34187939676370_1_alg».proof.Proof.ArraySpec
import proofs.«138103_j34187939676370_1_alg».proof.Proof.Finite
import proofs.«138103_j34187939676370_1_alg».proof.Proof.RefRead
import proofs.«138103_j34187939676370_1_alg».proof.Proof.KernelRun
import Idealize.ShloMosaic.Adequacy
import Idealize.ShloMosaic.Init

noncomputable section

namespace Cert.Proof

open Idealize.ShloMosaic Idealize.ShloMosaic.ValueIdx Idealize.SL.Sem Cert.MemoryNorm

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the joined arrangement of the (shared) argument arrays: the kernel's
    run gives the split arrangement, which is the joined one because the inputs are real; the reference's run gives the
    joined arrangement directly. -/
theorem algebraic : Cert.algebraic_KernelIdeal_ReferenceIdeal := by
  intro m ρ m' ρ' hpre hagree
  refine ⟨fun c => joinedArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun _ h c => ⟨(h c).1.trans ?_, (h c).2⟩)
      (Cert.KernelIdeal.RunValue.run m ρ)
    obtain ⟨h0, h1, h2, h3, h4⟩ := Cert.FiniteInputs.real_entries _ _ _ _ _ _ _ _ (hpre c)
    exact splitArr_eq_joinedArr _ _ _ _ _ _ _ _ h0 h1 h2 h3 h4
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v39_eq]
    obtain ⟨a0, a1, a2, a3, a4, a5, a6, a7⟩ := hagree c
    rw [a0, a1, a2, a3, a4, a5, a6, a7]
    funext i
    obtain ⟨b, s, d, rfl⟩ : ∃ (b : Fin 8) (s : Fin 4096) (d : Fin 2048), i = ix3 b s d := ⟨i 0, i 1, i 2, eq_ix3 i⟩
    show _ = joinedAt _ _ _ _ _ _ _ _ b s d
    exact Cert.ReferenceIdeal.RefValue.ref_apply _ _ _ _ _ _ _ _ b s d

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
